-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256x256 : Shape := ⟨4, ![8, 128, 256, 256]⟩
abbrev S128 : Shape := ⟨1, ![128]⟩
abbrev S_ : Shape := ⟨0, ![]⟩

class Facts : Prop where
  bcast_S_S8x128x256x256 : S_.BroadcastsInDim S8x128x256x256 (![] : Fin 0 → Fin S8x128x256x256.rank)
  reducesTo_S8x128x256x256_S_d0_1_2_3 : S8x128x256x256.ReducesTo [0, 1, 2, 3] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x128x256x256 .f32) (main_arg1 : FVec F S8x128x256x256 .f32) (main_arg2 : FVec F S128 .f32) (main_arg3 : FVec F S128 .f32) : IVec S_ 1 :=
  let main_v0 : FVec F S8x128x256x256 .f32 := Host.absf main_arg0
  let main_cst : FVec F S_ .f32 := constant S_ .f32 0x7F800000#32
  let main_v1 : FVec F S8x128x256x256 .f32 := broadcastInDim S8x128x256x256 ![] bcast_S_S8x128x256x256 main_cst
  let main_v2 : IVec S8x128x256x256 1 := cmpf .olt main_v0 main_v1
  let main_c : IVec S_ 1 := constantI S_ 1 1#1
  let main_v3 : IVec S_ 1 := (fun x v => Host.reduce IntOp.andi x v reducesTo_S8x128x256x256_S_d0_1_2_3 h_S_) main_v2 main_c
  let main_v4 : FVec F S8x128x256x256 .f32 := Host.absf main_arg1
  let main_cst_0 : FVec F S_ .f32 := constant S_ .f32 0x7F800000#32
  let main_v5 : FVec F S8x128x256x256 .f32 := broadcastInDim S8x128x256x256 ![] bcast_S_S8x128x256x256 main_cst_0
  let main_v6 : IVec S8x128x256x256 1 := cmpf .olt main_v4 main_v5
  let main_c_1 : IVec S_ 1 := constantI S_ 1 1#1
  let main_v7 : IVec S_ 1 := (fun x v => Host.reduce IntOp.andi x v reducesTo_S8x128x256x256_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x128x256x256 : Shape := ⟨4, ![8, 128, 256, 256]⟩
abbrev S128 : Shape := ⟨1, ![128]⟩
abbrev S128x1 : Shape := ⟨2, ![128, 1]⟩
abbrev S1x64x64x256 : Shape := ⟨4, ![1, 64, 64, 256]⟩
abbrev S64x1 : Shape := ⟨2, ![64, 1]⟩
abbrev S64x64x256 : Shape := ⟨3, ![64, 64, 256]⟩
abbrev S16x4x64x256 : Shape := ⟨4, ![16, 4, 64, 256]⟩
abbrev S16x1x1x256 : Shape := ⟨4, ![16, 1, 1, 256]⟩
abbrev S16x4x256 : Shape := ⟨3, ![16, 4, 256]⟩
abbrev S16x4x1x256 : Shape := ⟨4, ![16, 4, 1, 256]⟩
abbrev S16x1x256 : Shape := ⟨3, ![16, 1, 256]⟩
abbrev S16x1x1 : Shape := ⟨3, ![16, 1, 1]⟩
abbrev S16x1x1x1 : Shape := ⟨4, ![16, 1, 1, 1]⟩
abbrev S64x1x1 : Shape := ⟨3, ![64, 1, 1]⟩

abbrev nBuf : Space → Nat
  | .hbm => 7
  | .vmem => 10
  | .smem => 0
  | _ => 0

abbrev bufTy : (tb : Table) → Fin (tcTables nBuf tb) → BufTy
  | .hbm, ⟨0, _⟩ => ⟨S8x128x256x256, .f32⟩
  | .hbm, ⟨1, _⟩ => ⟨S8x128x256x256, .f32⟩
  | .hbm, ⟨2, _⟩ => ⟨S128, .f32⟩
  | .hbm, ⟨3, _⟩ => ⟨S128, .f32⟩
  | .hbm, ⟨4, _⟩ => ⟨S128x1, .f32⟩
  | .hbm, ⟨5, _⟩ => ⟨S128x1, .f32⟩
  | .hbm, ⟨6, _⟩ => ⟨S8x128x256x256, .f32⟩
  | .local _ .vmem, ⟨0, _⟩ => ⟨S1x64x64x256, .f32⟩
  | .local _ .vmem, ⟨1, _⟩ => ⟨S1x64x64x256, .f32⟩
  | .local _ .vmem, ⟨2, _⟩ => ⟨S1x64x64x256, .f32⟩
  | .local _ .vmem, ⟨3, _⟩ => ⟨S1x64x64x256, .f32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S1x64x64x256, .f32⟩
  | .local _ .vmem, ⟨9, _⟩ => ⟨S1x64x64x256, .f32⟩
  | _, _ => ⟨S8x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x64x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S128_S128x1 : S128.ShapeCasts S128x1
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S16x4x64x256 : S64x64x256.ShapeCasts S16x4x64x256
  iota_S16x1x1x256_d3_w32 : S16x1x1x256.Iotas .tc 32 [3]
  reduces_S16x4x64x256_S16x4x256 : S16x4x64x256.Reduces [2] S16x4x256
  shapeCasts_S16x4x256_S16x4x1x256 : S16x4x256.ShapeCasts S16x4x1x256
  reduces_S16x4x1x256_S16x1x256 : S16x4x1x256.Reduces [1] S16x1x256
  shapeCasts_S16x1x256_S16x1x1x256 : S16x1x256.ShapeCasts S16x1x1x256
  reduces_S16x1x1x256_S16x1x1 : S16x1x1x256.Reduces [3] S16x1x1
  shapeCasts_S16x1x1_S16x1x1x1 : S16x1x1.ShapeCasts S16x1x1x1
  shapeCasts_S16x1x1x1_S16x1x1x1 : S16x1x1x1.ShapeCasts S16x1x1x1
  broadcasts_S16x1x1x1_S16x1x1x256 : S16x1x1x1.Broadcasts S16x1x1x256
  broadcasts_S16x1x1x256_S16x4x64x256 : S16x1x1x256.Broadcasts S16x4x64x256
  shapeCasts_S16x4x64x256_S64x64x256 : S16x4x64x256.ShapeCasts S64x64x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x1_S64x1x1 : S64x1.ShapeCasts S64x1x1
  broadcasts_S64x1x1_S64x64x256 : S64x1x1.Broadcasts S64x64x256
  shapeCasts_S64x64x256_S1x64x64x256 : S64x64x256.ShapeCasts S1x64x64x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x256.size a ≤ S8x128x256x256.size a
  hwx0_0 : ∀ i : grid0.Coords, EltTy.bits .f32 = 32 ∨ (Rect.block (s := S8x128x256x256) S1x64x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64x256.size a ≤ S8x128x256x256.size a
  hwx0_1 : ∀ i : grid0.Coords, EltTy.bits .f32 = 32 ∨ (Rect.block (s := S8x128x256x256) S1x64x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S128x1.size a
  hwx0_2 : ∀ i : grid0.Coords, EltTy.bits .f32 = 32 ∨ (Rect.block (s := S128x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S128x1.size a
  hwx0_3 : ∀ i : grid0.Coords, EltTy.bits .f32 = 32 ∨ (Rect.block (s := S128x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64x256.size a ≤ S8x128x256x256.size a
  hwx0_4 : ∀ i : grid0.Coords, EltTy.bits .f32 = 32 ∨ (Rect.block (s := S8x128x256x256) S1x64x64x256.size (cc0_transform_4 i) (hinb0_4 i)).WholeWords (EltTy.packing .f32)

variable [Facts₀]

abbrev win0_0 : Pipeline.Window sig grid0 :=
  Pipeline.Window.ofSpec (Memref.whole main_arg0) S1x64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x128x256x256 : Shape := ⟨4, ![8, 128, 256, 256]⟩
abbrev S128 : Shape := ⟨1, ![128]⟩
abbrev S8x128x4x64x4x64 : Shape := ⟨6, ![8, 128, 4, 64, 4, 64]⟩
abbrev S8x4x4x128x64x64 : Shape := ⟨6, ![8, 4, 4, 128, 64, 64]⟩
abbrev S8x4x4x32x4x64x64 : Shape := ⟨7, ![8, 4, 4, 32, 4, 64, 64]⟩
abbrev S_ : Shape := ⟨0, ![]⟩
abbrev S8x4x4x32 : Shape := ⟨4, ![8, 4, 4, 32]⟩
abbrev S8x4x4x32x1x1x1 : Shape := ⟨7, ![8, 4, 4, 32, 1, 1, 1]⟩
abbrev S128x1x1 : Shape := ⟨3, ![128, 1, 1]⟩
abbrev S1x1x1x128x1x1 : Shape := ⟨6, ![1, 1, 1, 128, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S8x128x256x256, .f32⟩
  | .hbm, ⟨1, _⟩ => ⟨S8x128x256x256, .f32⟩
  | .hbm, ⟨2, _⟩ => ⟨S128, .f32⟩
  | .hbm, ⟨3, _⟩ => ⟨S128, .f32⟩
  | .hbm, ⟨4, _⟩ => ⟨S8x128x4x64x4x64, .f32⟩
  | .hbm, ⟨5, _⟩ => ⟨S8x4x4x128x64x64, .f32⟩
  | .hbm, ⟨6, _⟩ => ⟨S8x128x4x64x4x64, .f32⟩
  | .hbm, ⟨7, _⟩ => ⟨S8x4x4x128x64x64, .f32⟩
  | .hbm, ⟨8, _⟩ => ⟨S8x4x4x32x4x64x64, .f32⟩
  | .hbm, ⟨9, _⟩ => ⟨S_, .f32⟩
  | .hbm, ⟨10, _⟩ => ⟨S8x4x4x32, .f32⟩
  | .hbm, ⟨11, _⟩ => ⟨S8x4x4x32x1x1x1, .f32⟩
  | .hbm, ⟨12, _⟩ => ⟨S_, .f32⟩
  | .hbm, ⟨13, _⟩ => ⟨S8x4x4x32x1x1x1, .f32⟩
  | .hbm, ⟨14, _⟩ => ⟨S8x4x4x32x1x1x1, .f32⟩
  | .hbm, ⟨15, _⟩ => ⟨S_, .i32⟩
  | .hbm, ⟨16, _⟩ => ⟨S_, .f32⟩
  | .hbm, ⟨17, _⟩ => ⟨S8x4x4x32, .f32⟩
  | .hbm, ⟨18, _⟩ => ⟨S8x4x4x32x1x1x1, .f32⟩
  | .hbm, ⟨19, _⟩ => ⟨S_, .f32⟩
  | .hbm, ⟨20, _⟩ => ⟨S8x4x4x32x1x1x1, .f32⟩
  | .hbm, ⟨21, _⟩ => ⟨S8x4x4x32x1x1x1, .f32⟩
  | .hbm, ⟨22, _⟩ => ⟨S8x4x4x32x4x64x64, .f32⟩
  | .hbm, ⟨23, _⟩ => ⟨S8x4x4x32x4x64x64, .f32⟩
  | .hbm, ⟨24, _⟩ => ⟨S8x4x4x32x4x64x64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x4x4x32, .f32⟩
  | .hbm, ⟨30, _⟩ => ⟨S8x4x4x32x1x1x1, .f32⟩
  | .hbm, ⟨31, _⟩ => ⟨S8x4x4x32x1x1x1, .f32⟩
  | .hbm, ⟨32, _⟩ => ⟨S8x4x4x32x1x1x1, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S8x4x4x32x1x1x1, .f32⟩
  | .hbm, ⟨38, _⟩ => ⟨S8x4x4x32x1x1x1, .f32⟩
  | .hbm, ⟨39, _⟩ => ⟨S8x4x4x32x4x64x64, .f32⟩
  | .hbm, ⟨40, _⟩ => ⟨S8x4x4x32x4x64x64, .f32⟩
  | .hbm, ⟨41, _⟩ => ⟨S_, .f32⟩
  | .hbm, ⟨42, _⟩ => ⟨S8x4x4x32x1x1x1, .f32⟩
  | .hbm, ⟨43, _⟩ => ⟨S8x4x4x32x1x1x1, .f32⟩
  | .hbm, ⟨44, _⟩ => ⟨S8x4x4x32x1x1x1, .f32⟩
  | .hbm, ⟨45, _⟩ => ⟨S8x4x4x32x4x64x64, .f32⟩
  | .hbm, ⟨46, _⟩ => ⟨S8x4x4x32x4x64x64, .f32⟩
  | .hbm, ⟨47, _⟩ => ⟨S8x4x4x128x64x64, .f32⟩
  | .hbm, ⟨48, _⟩ => ⟨S128x1x1, .f32⟩
  | .hbm, ⟨49, _⟩ => ⟨S1x1x1x128x1x1, .f32⟩
  | .hbm, ⟨50, _⟩ => ⟨S8x4x4x128x64x64, .f32⟩
  | .hbm, ⟨51, _⟩ => ⟨S8x4x4x128x64x64, .f32⟩
  | .hbm, ⟨52, _⟩ => ⟨S128x1x1, .f32⟩
  | .hbm, ⟨53, _⟩ => ⟨S1x1x1x128x1x1, .f32⟩
  | .hbm, ⟨54, _⟩ => ⟨S8x4x4x128x64x64, .f32⟩
  | .hbm, ⟨55, _⟩ => ⟨S8x4x4x128x64x64, .f32⟩
  | .hbm, ⟨56, _⟩ => ⟨S8x4x4x128x64x64, .f32⟩
  | .hbm, ⟨57, _⟩ => ⟨S8x4x4x128x64x64, .f32⟩
  | .hbm, ⟨58, _⟩ => ⟨S_, .f32⟩
  | .hbm, ⟨59, _⟩ => ⟨S8x4x4x128x64x64, .f32⟩
  | .hbm, ⟨60, _⟩ => ⟨S8x4x4x128x64x64, .f32⟩
  | .hbm, ⟨61, _⟩ => ⟨S_, .f32⟩
  | .hbm, ⟨62, _⟩ => ⟨S8x4x4x128x64x64, .f32⟩
  | .hbm, ⟨63, _⟩ => ⟨S8x4x4x128x64x64, .f32⟩
  | .hbm, ⟨64, _⟩ => ⟨S8x4x4x128x64x64, .f32⟩
  | .hbm, ⟨65, _⟩ => ⟨S_, .f32⟩
  | .hbm, ⟨66, _⟩ => ⟨S8x4x4x128x64x64, .f32⟩
  | .hbm, ⟨67, _⟩ => ⟨S8x4x4x128x64x64, .f32⟩
  | .hbm, ⟨68, _⟩ => ⟨S8x4x4x128x64x64, .f32⟩
  | .hbm, ⟨69, _⟩ => ⟨S8x128x4x64x4x64, .f32⟩
  | .hbm, ⟨70, _⟩ => ⟨S8x128x256x256, .f32⟩
  | _, _ => ⟨S8x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_cst_3 : Ref sig .tc := ⟨.hbm, 33, rfl⟩
abbrev main_call0_v13 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v26 : Ref sig .tc := ⟨.hbm, 64, rfl⟩
abbrev main_cst_2 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩

abbrev nD : Nat := 1
abbrev τ : Topo := Topo.v7x

variable {F : FTy → Type} [FloatOps F]

class Facts₀ : Prop where
  shapeCasts_S8x128x256x256_S8x128x4x64x4x64 : S8x128x256x256.ShapeCasts S8x128x4x64x4x64
  transposes_S8x128x4x64x4x64_S8x4x4x128x64x64_0_2_4_1_3_5 : S8x128x4x64x4x64.Transposes [0, 2, 4, 1, 3, 5] S8x4x4x128x64x64
  shapeCasts_S8x4x4x128x64x64_S8x4x4x32x4x64x64 : S8x4x4x128x64x64.ShapeCasts S8x4x4x32x4x64x64
  reducesTo_S8x4x4x32x4x64x64_S8x4x4x32_d4_5_6 : S8x4x4x32x4x64x64.ReducesTo [4, 5, 6] S8x4x4x32
  h_S_ : 0 < S_.numel
  bcast_S8x4x4x32_S8x4x4x32x1x1x1_0_1_2_3 : S8x4x4x32.BroadcastsInDim S8x4x4x32x1x1x1 (![0, 1, 2, 3] : Fin 4 → Fin S8x4x4x32x1x1x1.rank)
  bcast_S_S8x4x4x32x1x1x1 : S_.BroadcastsInDim S8x4x4x32x1x1x1 (![] : Fin 0 → Fin S8x4x4x32x1x1x1.rank)
  bcast_S8x4x4x32x1x1x1_S8x4x4x32x4x64x64_0_1_2_3_4_5_6 : S8x4x4x32x1x1x1.BroadcastsInDim S8x4x4x32x4x64x64 (![0, 1, 2, 3, 4, 5, 6] : Fin 7 → Fin S8x4x4x32x4x64x64.rank)
  shapeCasts_S8x4x4x32x4x64x64_S8x4x4x128x64x64 : S8x4x4x32x4x64x64.ShapeCasts S8x4x4x128x64x64
  bcast_S128_S128x1x1_0 : S128.BroadcastsInDim S128x1x1 (![0] : Fin 1 → Fin S128x1x1.rank)
  bcast_S128x1x1_S1x1x1x128x1x1_3_4_5 : S128x1x1.BroadcastsInDim S1x1x1x128x1x1 (![3, 4, 5] : Fin 3 → Fin S1x1x1x128x1x1.rank)
  bcast_S1x1x1x128x1x1_S8x4x4x128x64x64_0_1_2_3_4_5 : S1x1x1x128x1x1.BroadcastsInDim S8x4x4x128x64x64 (![0, 1, 2, 3, 4, 5] : Fin 6 → Fin S8x4x4x128x64x64.rank)
  bcast_S_S8x4x4x128x64x64 : S_.BroadcastsInDim S8x4x4x128x64x64 (![] : Fin 0 → Fin S8x4x4x128x64x64.rank)
  transposes_S8x4x4x128x64x64_S8x128x4x64x4x64_0_3_1_4_2_5 : S8x4x4x128x64x64.Transposes [0, 3, 1, 4, 2, 5] S8x128x4x64x4x64
  shapeCasts_S8x128x4x64x4x64_S8x128x256x256 : S8x128x4x64x4x64.ShapeCasts S8x128x256x256

variable [Facts₀]

class Facts : Prop extends Facts₀ where

variable [Facts]
-- ==== Proof.KerBody.lean ====
/-
  What the kernel body stores, as one function of the four blocks it loads.

  From the block `x0 : [1, 64, 64, 256]` of `x` the body forms the grouped view `[16, 4, 64, 256]`, sums it over the
  rows and over the four channels of each group (`groupSum`: one number per group and lane), and replaces each lane's
  number by the sum over the lane's 64-lane segment (`segSel`: for each of the four segments, the masked sum over all
  lanes spread back over the segment's lanes, the four added up from `0`). Times `2⁻¹⁴` that is the mean; the
  deviation is the grouped view minus the mean spread over channels and rows; the same two sums of the squared
  deviation, times `2⁻¹⁴`, is the variance; and the stored block is

      ((deviation · rsqrt (variance + ε)) viewed [64, 64, 256] · w0 + b0) · (1 + y0 · logistic y0)

  with the per-channel columns `w0`, `b0 : [64, 1]` spread over rows and lanes. The printed body computes exactly
  this term, cut into pieces at positions that mean nothing; `payload_eq` says so by unfolding.
-/
import proofs.«135047_j75144747811287_2_alg».proof.Proof.Gen.KernelIdeal.Skeleton
import Idealize.ShloMosaic.PureOps.Ideal

noncomputable section

namespace Cert.KerBody

open Idealize.ShloMosaic Cert.KernelIdeal Cert.KernelIdeal.Gen

/-- The lane number, per group. -/
abbrev lanes : IVec S16x1x1x256 32 := iota .tc S16x1x1x256 32 [3] iota_S16x1x1x256_d3_w32

/-- The lanes `lo ≤ lane < hi`. -/
abbrev mask (lo hi : BitVec 32) : IVec S16x1x1x256 1 :=
  andi (cmpi .sge lanes (broadcast S16x1x1x256 lo)) (cmpi .slt lanes (broadcast S16x1x1x256 hi))

/-- `0` at every group and lane. -/
abbrev zeros : FVec Ideal S16x1x1x256 .f32 := broadcast S16x1x1x256 (Scalar.ofBits (F := Ideal) .f32 0x00000000#32)

/-- The sum of `v` over the lanes of the mask, spread over the lanes of the mask; `0` elsewhere. -/
abbrev segTerm (mk : IVec S16x1x1x256 1) (v : FVec Ideal S16x1x1x256 .f32) : FVec Ideal S16x1x1x256 .f32 :=
  select mk
    (broadcastTo S16x1x1x256
      (shapeCast S16x1x1x1
        (shapeCast S16x1x1x1
          (multiReduction .add [3] S16x1x1 (select mk v zeros) 0x00000000#32 reduces_S16x1x1x256_S16x1x1 (.inl rfl) rfl)
          shapeCasts_S16x1x1_S16x1x1x1)
        shapeCasts_S16x1x1x1_S16x1x1x1)
      broadcasts_S16x1x1x1_S16x1x1x256)
    zeros

/-- Each lane's number replaced by the sum over the lane's segment of 64 lanes. -/
abbrev segSel (v : FVec Ideal S16x1x1x256 .f32) : FVec Ideal S16x1x1x256 .f32 :=
  addf (addf (addf (addf zeros (segTerm (mask 0#32 64#32) v)) (segTerm (mask 64#32 128#32) v)) (segTerm (mask 128#32 192#32) v))
    (segTerm (mask 192#32 256#32) v)

/-- The sum over the rows and the four channels of each group, per group and lane. -/
abbrev groupSum (a : FVec Ideal S16x4x64x256 .f32) : FVec Ideal S16x1x1x256 .f32 :=
  shapeCast S16x1x1x256
    (multiReduction .add [1] S16x1x256
      (shapeCast S16x4x1x256
        (multiReduction .add [2] S16x4x256 a 0x00000000#32 reduces_S16x4x64x256_S16x4x256 (.inl rfl) rfl)
        shapeCasts_S16x4x256_S16x4x1x256)
      0x00000000#32 reduces_S16x4x1x256_S16x1x256 (.inl rfl) rfl)
    shapeCasts_S16x1x256_S16x1x1x256

/-- Times `2⁻¹⁴`. -/
abbrev scaled (v : FVec Ideal S16x1x1x256 .f32) : FVec Ideal S16x1x1x256 .f32 :=
  mulf v (broadcast S16x1x1x256 (Scalar.ofBits (F := Ideal) .f32 0x38800000#32))

/-- The block of `x` viewed by group and channel of the group. -/
abbrev grouped (x0 : Vec Ideal S1x64x64x256 .f32) : FVec Ideal S16x4x64x256 .f32 :=
  shapeCast S16x4x64x256 (shapeCast S64x64x256 x0 shapeCasts_S1x64x64x256_S64x64x256) shapeCasts_S64x64x256_S16x4x64x256

/-- The mean, per group and lane. -/
abbrev meanT (x0 : Vec Ideal S1x64x64x256 .f32) : FVec Ideal S16x1x1x256 .f32 :=
  scaled (segSel (groupSum (grouped x0)))

/-- The deviation from the mean. -/
abbrev dev (x0 : Vec Ideal S1x64x64x256 .f32) : FVec Ideal S16x4x64x256 .f32 :=
  subf (grouped x0) (broadcastTo S16x4x64x256 (meanT x0) broadcasts_S16x1x1x256_S16x4x64x256)

/-- The variance, per group and lane. -/
abbrev varT (x0 : Vec Ideal S1x64x64x256 .f32) : FVec Ideal S16x1x1x256 .f32 :=
  scaled (segSel (groupSum (mulf (dev x0) (dev x0))))

/-- A per-channel column spread over rows and lanes. -/
abbrev perChan (c0 : Vec Ideal S64x1 .f32) : FVec Ideal S64x64x256 .f32 :=
  broadcastTo S64x64x256 (shapeCast S64x1x1 (shapeCast S64x1 c0 shapeCasts_S64x1_S64x1) shapeCasts_S64x1_S64x1x1)
    broadcasts_S64x1x1_S64x64x256

/-- The stored block. -/
def body (x0 y0 : Vec Ideal S1x64x64x256 .f32) (w0 b0 : Vec Ideal S64x1 .f32) : FVec Ideal S1x64x64x256 .f32 :=
  shapeCast S1x64x64x256
    (mulf
      (addf
        (mulf
          (shapeCast S64x64x256
            (mulf (dev x0)
              (broadcastTo S16x4x64x256
                (rsqrt (addf (varT x0) (broadcast S16x1x1x256 (Scalar.ofBits (F := Ideal) .f32 0x3727C5AC#32))))
                broadcasts_S16x1x1x256_S16x4x64x256))
            shapeCasts_S16x4x64x256_S64x64x256)
          (perChan w0))
        (perChan b0))
      (addf (broadcast S64x64x256 (Scalar.ofBits (F := Ideal) .f32 0x3F800000#32))
        (mulf (shapeCast S64x64x256 y0 shapeCasts_S1x64x64x256_S64x64x256)
          (logistic (shapeCast S64x64x256 y0 shapeCasts_S1x64x64x256_S64x64x256)))))
    shapeCasts_S64x64x256_S1x64x64x256

/-- The printed body's stored value, over its four loads, is `body` of them. -/
theorem payload_eq (x0 y0 : Vec Ideal S1x64x64x256 .f32) (w0 b0 : Vec Ideal S64x1 .f32) :
    k0_pay1 (F := Ideal)
      (k0_pay6 (k0_pay2 x0) (iota .tc S16x1x1x256 32 [3] iota_S16x1x1x256_d3_w32) (k0_pay3 x0) (k0_pay4 x0) k0_pay5)
      (k0_pay11 (iota .tc S16x1x1x256 32 [3] iota_S16x1x1x256_d3_w32)
        (k0_pay7 (k0_pay2 x0) (iota .tc S16x1x1x256 32 [3] iota_S16x1x1x256_d3_w32) (k0_pay3 x0) (k0_pay4 x0) k0_pay5)
        (k0_pay8 (F := Ideal)) (k0_pay9 (iota .tc S16x1x1x256 32 [3] iota_S16x1x1x256_d3_w32))
        (k0_pay10 (k0_pay2 x0) (iota .tc S16x1x1x256 32 [3] iota_S16x1x1x256_d3_w32) (k0_pay3 x0) (k0_pay4 x0) k0_pay5))
      (k0_pay12 (iota .tc S16x1x1x256 32 [3] iota_S16x1x1x256_d3_w32))
      (k0_pay13 (iota .tc S16x1x1x256 32 [3] iota_S16x1x1x256_d3_w32)
        (k0_pay7 (k0_pay2 x0) (iota .tc S16x1x1x256 32 [3] iota_S16x1x1x256_d3_w32) (k0_pay3 x0) (k0_pay4 x0) k0_pay5))
      (Scalar.ofBits .f32 0x00000000#32) w0 b0 y0
      = body x0 y0 w0 b0 := rfl

end Cert.KerBody

end
-- ==== Proof.KerLayout.lean ====
/-
  The kernel body's layout operations, reductions and lane masks read at an index given by its coordinates.

  A block of `x` is `[1, 64, 64, 256]`: 64 channels, 64 rows, 256 lanes. The body views it as `[64, 64, 256]` and then
  as `[16, 4, 64, 256]` — channel `c` is entry `c % 4` of group `c / 4`, so `(g, cc)` is channel `4 g + cc` —, sums
  over the rows and then over the four channels of a group, keeping unit axes in between, and builds the four lane
  masks `64 k ≤ lane < 64 (k + 1)` from the lane number. Every cast below moves an entry to the index with the same
  row-major position; every broadcast reads the operand at `0` along its unit axes; a reduction over one axis is the
  sum over that axis's coordinate.
-/
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

noncomputable section

open scoped BigOperators

namespace Cert.KerLayout

open Idealize.ShloMosaic Idealize.ShloMosaic.ValueIdx

variable {α : Type}

/-! ## Casts -/

/-- `[64, 64, 256]` viewed `[16, 4, 64, 256]`: entry `(g, cc, r, l)` is channel `4 g + cc`. -/
theorem cast_group (x : (⟨3, ![64, 64, 256]⟩ : Shape).Idx → α)
    (h : (⟨3, ![64, 64, 256]⟩ : Shape).ShapeCasts ⟨4, ![16, 4, 64, 256]⟩) (g : Fin 16) (cc : Fin 4) (r : Fin 64) (l : Fin 256) :
    shapeCast ⟨4, ![16, 4, 64, 256]⟩ x h (ix4 g cc r l) = x (ix3 (⟨4 * g.val + cc.val, by omega⟩ : Fin 64) r l) :=
  shapeCast_apply x h _ _ (by
    rw [Shape.rowMajor_val_three, Shape.rowMajor_val_four]
    show ((4 * g.val + cc.val) * 64 + r.val) * 256 + l.val = ((g.val * 4 + cc.val) * 64 + r.val) * 256 + l.val
    omega)

/-- `[16, 4, 64, 256]` viewed `[64, 64, 256]`: channel `c` is entry `c % 4` of group `c / 4`. -/
theorem cast_ungroup (x : (⟨4, ![16, 4, 64, 256]⟩ : Shape).Idx → α)
    (h : (⟨4, ![16, 4, 64, 256]⟩ : Shape).ShapeCasts ⟨3, ![64, 64, 256]⟩) (c : Fin 64) (r : Fin 64) (l : Fin 256) :
    shapeCast ⟨3, ![64, 64, 256]⟩ x h (ix3 c r l)
      = x (ix4 (⟨c.val / 4, by omega⟩ : Fin 16) (⟨c.val % 4, by omega⟩ : Fin 4) r l) :=
  shapeCast_apply x h _ _ (by
    rw [Shape.rowMajor_val_three, Shape.rowMajor_val_four]
    show (((c.val / 4) * 4 + c.val % 4) * 64 + r.val) * 256 + l.val = (c.val * 64 + r.val) * 256 + l.val
    omega)

/-- `[16, 4, 256]` with a unit axis put before the lanes. -/
theorem cast_16_4_1_256 (x : (⟨3, ![16, 4, 256]⟩ : Shape).Idx → α)
    (h : (⟨3, ![16, 4, 256]⟩ : Shape).ShapeCasts ⟨4, ![16, 4, 1, 256]⟩) (g : Fin 16) (cc : Fin 4) (u : Fin 1) (l : Fin 256) :
    shapeCast ⟨4, ![16, 4, 1, 256]⟩ x h (ix4 g cc u l) = x (ix3 g cc l) :=
  shapeCast_apply x h _ _ (by
    have hu : u.val = 0 := by omega
    rw [Shape.rowMajor_val_three, Shape.rowMajor_val_four]
    show (g.val * 4 + cc.val) * 256 + l.val = ((g.val * 4 + cc.val) * 1 + u.val) * 256 + l.val
    rw [hu]; omega)

/-- `[16, 1, 256]` with a second unit axis put before the lanes. -/
theorem cast_16_1_1_256 (x : (⟨3, ![16, 1, 256]⟩ : Shape).Idx → α)
    (h : (⟨3, ![16, 1, 256]⟩ : Shape).ShapeCasts ⟨4, ![16, 1, 1, 256]⟩) (g : Fin 16) (u u' : Fin 1) (l : Fin 256) :
    shapeCast ⟨4, ![16, 1, 1, 256]⟩ x h (ix4 g u u' l) = x (ix3 g u l) :=
  shapeCast_apply x h _ _ (by
    have hu : u'.val = 0 := by omega
    rw [Shape.rowMajor_val_three, Shape.rowMajor_val_four]
    show (g.val * 1 + u.val) * 256 + l.val = ((g.val * 1 + u.val) * 1 + u'.val) * 256 + l.val
    rw [hu]; omega)

/-- `[16, 1, 1]` with a third unit axis. -/
theorem cast_16_1_1_1 (x : (⟨3, ![16, 1, 1]⟩ : Shape).Idx → α)
    (h : (⟨3, ![16, 1, 1]⟩ : Shape).ShapeCasts ⟨4, ![16, 1, 1, 1]⟩) (g : Fin 16) (u u' u'' : Fin 1) :
    shapeCast ⟨4, ![16, 1, 1, 1]⟩ x h (ix4 g u u' u'') = x (ix3 g u u') :=
  shapeCast_apply x h _ _ (by
    have hu : u''.val = 0 := by omega
    rw [Shape.rowMajor_val_three, Shape.rowMajor_val_four]
    show (g.val * 1 + u.val) * 1 + u'.val = ((g.val * 1 + u.val) * 1 + u'.val) * 1 + u''.val
    rw [hu]; omega)

/-- A column `[64, 1]` with a second unit axis. -/
theorem cast_64_1_1 (x : (⟨2, ![64, 1]⟩ : Shape).Idx → α)
    (h : (⟨2, ![64, 1]⟩ : Shape).ShapeCasts ⟨3, ![64, 1, 1]⟩) (c : Fin 64) (u u' : Fin 1) :
    shapeCast ⟨3, ![64, 1, 1]⟩ x h (ix3 c u u') = x (ix2 c u) :=
  shapeCast_apply x h _ _ (by
    have hu : u'.val = 0 := by omega
    rw [Shape.rowMajor_val_two, Shape.rowMajor_val_three]
    show c.val * 1 + u.val = (c.val * 1 + u.val) * 1 + u'.val
    rw [hu]; omega)

/-! ## Broadcasts -/

/-- A per-group value spread over the 256 lanes. -/
theorem bcast_lanes (x : (⟨4, ![16, 1, 1, 1]⟩ : Shape).Idx → α)
    (h : (⟨4, ![16, 1, 1, 1]⟩ : Shape).Broadcasts ⟨4, ![16, 1, 1, 256]⟩) (g : Fin 16) (u u' : Fin 1) (l : Fin 256) :
    broadcastTo ⟨4, ![16, 1, 1, 256]⟩ x h (ix4 g u u' l) = x (ix4 g (0 : Fin 1) (0 : Fin 1) (0 : Fin 1)) :=
  broadcastTo_apply x h _ _ (fun a => by
    match a with
    | ⟨0, _⟩ => rfl
    | ⟨1, _⟩ => rfl
    | ⟨2, _⟩ => rfl
    | ⟨3, _⟩ => rfl)

/-- A per-group, per-lane value spread over the group's four channels and the 64 rows. -/
theorem bcast_block (x : (⟨4, ![16, 1, 1, 256]⟩ : Shape).Idx → α)
    (h : (⟨4, ![16, 1, 1, 256]⟩ : Shape).Broadcasts ⟨4, ![16, 4, 64, 256]⟩) (g : Fin 16) (cc : Fin 4) (r : Fin 64) (l : Fin 256) :
    broadcastTo ⟨4, ![16, 4, 64, 256]⟩ x h (ix4 g cc r l) = x (ix4 g (0 : Fin 1) (0 : Fin 1) l) :=
  broadcastTo_apply x h _ _ (fun a => by
    match a with
    | ⟨0, _⟩ => rfl
    | ⟨1, _⟩ => rfl
    | ⟨2, _⟩ => rfl
    | ⟨3, _⟩ => rfl)

/-- A per-channel value spread over the rows and the lanes. -/
theorem bcast_chan (x : (⟨3, ![64, 1, 1]⟩ : Shape).Idx → α)
    (h : (⟨3, ![64, 1, 1]⟩ : Shape).Broadcasts ⟨3, ![64, 64, 256]⟩) (c : Fin 64) (r : Fin 64) (l : Fin 256) :
    broadcastTo ⟨3, ![64, 64, 256]⟩ x h (ix3 c r l) = x (ix3 c (0 : Fin 1) (0 : Fin 1)) :=
  broadcastTo_apply x h _ _ (fun a => by
    match a with
    | ⟨0, _⟩ => rfl
    | ⟨1, _⟩ => rfl
    | ⟨2, _⟩ => rfl)

/-! ## Reductions over one axis, as sums -/

/-- The sum over the 64 rows. -/
theorem red_rows (src : FVec Ideal ⟨4, ![16, 4, 64, 256]⟩ .f32) (h : Shape.Reduces ⟨4, ![16, 4, 64, 256]⟩ [2] ⟨3, ![16, 4, 256]⟩)
    (hφ : FKind.Formats .f32) (hacc : (0x00000000#32 : BitVec 32) = 0x00000000#32) (g : Fin 16) (cc : Fin 4) (l : Fin 256) :
    multiReduction .add [2] ⟨3, ![16, 4, 256]⟩ src 0x00000000#32 h hφ hacc (ix3 g cc l) = ∑ r : Fin 64, src (ix4 g cc r l) := by
  refine (Ideal.multiReduction_add_single src 0x00000000#32 h hφ hacc (ix3 g cc l)).trans ?_
  refine Finset.sum_congr rfl fun r _ => congrArg src (funext fun d => ?_)
  match d with
  | ⟨0, _⟩ => rfl
  | ⟨1, _⟩ => rfl
  | ⟨2, _⟩ => rfl
  | ⟨3, _⟩ => rfl

/-- The sum over the four channels of a group. -/
theorem red_chans (src : FVec Ideal ⟨4, ![16, 4, 1, 256]⟩ .f32) (h : Shape.Reduces ⟨4, ![16, 4, 1, 256]⟩ [1] ⟨3, ![16, 1, 256]⟩)
    (hφ : FKind.Formats .f32) (hacc : (0x00000000#32 : BitVec 32) = 0x00000000#32) (g : Fin 16) (u : Fin 1) (l : Fin 256) :
    multiReduction .add [1] ⟨3, ![16, 1, 256]⟩ src 0x00000000#32 h hφ hacc (ix3 g u l) = ∑ cc : Fin 4, src (ix4 g cc u l) := by
  refine (Ideal.multiReduction_add_single src 0x00000000#32 h hφ hacc (ix3 g u l)).trans ?_
  refine Finset.sum_congr rfl fun cc _ => congrArg src (funext fun d => ?_)
  match d with
  | ⟨0, _⟩ => rfl
  | ⟨1, _⟩ => rfl
  | ⟨2, _⟩ => rfl
  | ⟨3, _⟩ => rfl

/-- The sum over the 256 lanes. -/
theorem red_lanes (src : FVec Ideal ⟨4, ![16, 1, 1, 256]⟩ .f32) (h : Shape.Reduces ⟨4, ![16, 1, 1, 256]⟩ [3] ⟨3, ![16, 1, 1]⟩)
    (hφ : FKind.Formats .f32) (hacc : (0x00000000#32 : BitVec 32) = 0x00000000#32) (g : Fin 16) (u u' : Fin 1) :
    multiReduction .add [3] ⟨3, ![16, 1, 1]⟩ src 0x00000000#32 h hφ hacc (ix3 g u u') = ∑ l : Fin 256, src (ix4 g u u' l) := by
  refine (Ideal.multiReduction_add_single src 0x00000000#32 h hφ hacc (ix3 g u u')).trans ?_
  refine Finset.sum_congr rfl fun l _ => congrArg src (funext fun d => ?_)
  match d with
  | ⟨0, _⟩ => rfl
  | ⟨1, _⟩ => rfl
  | ⟨2, _⟩ => rfl
  | ⟨3, _⟩ => rfl

/-! ## The lane masks -/

/-- A select on a decided bit is the `if`. -/
theorem select_ite {β : Type} (c : Prop) [Decidable c] (a b : β) :
    Scalar.select (if c then (1#1 : BitVec 1) else 0#1) a b = if c then a else b := by
  by_cases hc : c
  · rw [if_pos hc, if_pos hc]; exact select_one a b
  · rw [if_neg hc, if_neg hc]; exact select_zero a b

/-- The lane number at `(g, ·, ·, l)` is `l`. -/
theorem lane_iota (h : (⟨4, ![16, 1, 1, 256]⟩ : Shape).Iotas .tc 32 [3]) (g : Fin 16) (u u' : Fin 1) (l : Fin 256) :
    iota .tc ⟨4, ![16, 1, 1, 256]⟩ 32 [3] h (ix4 g u u' l) = BitVec.ofNat 32 l.val :=
  iota_single_apply .tc ⟨4, ![16, 1, 1, 256]⟩ 32 3 h (ix4 g u u' l)

/-- `0 ≤ lane < 64` is "the lane is in segment 0". -/
theorem mask0 : ∀ l : Fin 256, IntOp.andi (IntOp.cmpi .sge (BitVec.ofNat 32 l.val) 0#32) (IntOp.cmpi .slt (BitVec.ofNat 32 l.val) 64#32)
    = if l.val / 64 = 0 then (1#1 : BitVec 1) else 0#1 := by decide +kernel
/-- `64 ≤ lane < 128` is "the lane is in segment 1". -/
theorem mask1 : ∀ l : Fin 256, IntOp.andi (IntOp.cmpi .sge (BitVec.ofNat 32 l.val) 64#32) (IntOp.cmpi .slt (BitVec.ofNat 32 l.val) 128#32)
    = if l.val / 64 = 1 then (1#1 : BitVec 1) else 0#1 := by decide +kernel
/-- `128 ≤ lane < 192` is "the lane is in segment 2". -/
theorem mask2 : ∀ l : Fin 256, IntOp.andi (IntOp.cmpi .sge (BitVec.ofNat 32 l.val) 128#32) (IntOp.cmpi .slt (BitVec.ofNat 32 l.val) 192#32)
    = if l.val / 64 = 2 then (1#1 : BitVec 1) else 0#1 := by decide +kernel
/-- `192 ≤ lane < 256` is "the lane is in segment 3". -/
theorem mask3 : ∀ l : Fin 256, IntOp.andi (IntOp.cmpi .sge (BitVec.ofNat 32 l.val) 192#32) (IntOp.cmpi .slt (BitVec.ofNat 32 l.val) 256#32)
    = if l.val / 64 = 3 then (1#1 : BitVec 1) else 0#1 := by decide +kernel

end Cert.KerLayout

end
-- ==== Proof.Spec.lean ====
/-
  The function both programs compute, index by index, on the extended reals.

  The arrays are `x, y : [8, 128, 256, 256]` (batch, channel, row, column) and `w, bias : [128]`.
  The rows and the columns are cut into four patches of 64 and the channels into 32 groups of 4. For a batch entry
  `b`, a row patch `i`, a column patch `j` and a group `g`, the PATCH SUM of a function of the index is its sum over
  the 4 · 64 · 64 indices `(b, 4g + cc, 64i + hh, 64j + ww)`. The mean is the patch sum of `x` times `2⁻¹⁴` (there are
  `16384 = 2¹⁴` summands), the variance the patch sum of the squared deviations from that mean times `2⁻¹⁴`, and

      G x y w bias (b, ch, h, c) = ((x − mean) · rsqrt (var + ε) · w ch + bias ch) · (1 + y · logistic y)

  at the patch and group of the index: `i = h / 64`, `j = c / 64`, `g = ch / 4`. The three float constants are kept
  as their binary words: `2⁻¹⁴`, `ε` (the f32 nearest `1e-5`) and `1`.
-/
import Idealize.ShloMosaic.PureOps.Ideal
import Idealize.ShloMosaic.Lib.ValueIdx

noncomputable section

open scoped BigOperators

namespace Cert.Spec

open Idealize.ShloMosaic Idealize.ShloMosaic.ValueIdx

/-- The shape of `x`, `y` and the result. -/
abbrev SX : Shape := ⟨4, ![8, 128, 256, 256]⟩
/-- The shape of the per-channel scale and shift. -/
abbrev SC : Shape := ⟨1, ![128]⟩

/-- Channel `cc` of group `g`. -/
def chan (g : Fin 32) (cc : Fin 4) : Fin 128 := ⟨4 * g.val + cc.val, by omega⟩
/-- Row (or column) `r` of patch `i`. -/
def pos (i : Fin 4) (r : Fin 64) : Fin 256 := ⟨64 * i.val + r.val, by omega⟩
/-- The group of a channel. -/
def grp (ch : Fin 128) : Fin 32 := ⟨ch.val / 4, by omega⟩
/-- The patch of a row (or column). -/
def patch (h : Fin 256) : Fin 4 := ⟨h.val / 64, by omega⟩

/-- `2⁻¹⁴`, one over the number of entries of a patch of a group. -/
def invN : EReal := Ideal.ofBits .f32 0x38800000#32
/-- The variance's guard `ε`. -/
def eps : EReal := Ideal.ofBits .f32 0x3727C5AC#32
/-- `1`. -/
def one : EReal := Ideal.ofBits .f32 0x3F800000#32

/-- The sum of `f` over the entries of group `g` in patch `(i, j)` of batch entry `b`. -/
def patchSum (f : SX.Idx → EReal) (b : Fin 8) (i j : Fin 4) (g : Fin 32) : EReal :=
  ∑ cc : Fin 4, ∑ hh : Fin 64, ∑ ww : Fin 64, f (ix4 b (chan g cc) (pos i hh) (pos j ww))

/-- The mean of `x` over that patch of that group. -/
def mean (x : SX.Idx → EReal) (b : Fin 8) (i j : Fin 4) (g : Fin 32) : EReal :=
  patchSum x b i j g * invN

/-- The squared deviation of `x` from that mean, as a function of the index. -/
def sqdev (x : SX.Idx → EReal) (b : Fin 8) (i j : Fin 4) (g : Fin 32) : SX.Idx → EReal :=
  fun k => (x k - mean x b i j g) * (x k - mean x b i j g)

/-- The variance of `x` over that patch of that group. -/
def var (x : SX.Idx → EReal) (b : Fin 8) (i j : Fin 4) (g : Fin 32) : EReal :=
  patchSum (sqdev x b i j g) b i j g * invN

/-- The result: the group-normalized `x`, scaled and shifted per channel, times the gate `1 + y · logistic y`. -/
def G (x y : SX.Idx → EReal) (w bias : SC.Idx → EReal) : SX.Idx → EReal := fun k =>
  ((x k - mean x (k 0) (patch (k 2)) (patch (k 3)) (grp (k 1)))
      * Ideal.rsqrt (var x (k 0) (patch (k 2)) (patch (k 3)) (grp (k 1)) + eps) * w (ix1 (k 1)) + bias (ix1 (k 1)))
    * (one + y k * Ideal.logistic (y k))

/-- `G` at an index given by its coordinates. -/
theorem G_ix4 (x y : SX.Idx → EReal) (w bias : SC.Idx → EReal) (b : Fin 8) (ch : Fin 128) (h c : Fin 256) :
    G x y w bias (ix4 b ch h c)
      = ((x (ix4 b ch h c) - mean x b (patch h) (patch c) (grp ch))
          * Ideal.rsqrt (var x b (patch h) (patch c) (grp ch) + eps) * w (ix1 ch) + bias (ix1 ch))
        * (one + y (ix4 b ch h c) * Ideal.logistic (y (ix4 b ch h c))) := rfl

end Cert.Spec

end
-- ==== Proof.KerSums.lean ====
/-
  Sums over the 256 lanes of a row, cut into four segments of 64.

  A row of 256 lanes holds four patches side by side: lane `l` lies in segment `l / 64`, and lane `r` of segment
  `j` is `64 j + r`. Summing a function over the lanes of one segment — written as a sum over all 256 lanes of the
  function where the lane is in the segment and `0` elsewhere — is the sum over the 64 lanes of the segment
  (`sum_seg`). Spreading each segment's sum over that segment's own lanes and adding the four spread sums gives, at
  every lane, the sum over the lane's own segment (`seg_select`): three of the four summands are `0` there. Only that
  `0` is neutral for addition is used, so this holds for every function into the extended reals.
-/
import proofs.«135047_j75144747811287_2_alg».proof.Proof.Spec

noncomputable section

open scoped BigOperators

namespace Cert.KerSums

open Cert.Spec

/-- The sum over all lanes of `f` on segment `j` and `0` off it is the sum of `f` over the segment's 64 lanes. -/
theorem sum_seg (f : Fin 256 → EReal) (j : Fin 4) :
    ∑ l : Fin 256, (if l.val / 64 = j.val then f l else 0) = ∑ r : Fin 64, f (pos j r) := by
  have e := (finProdFinEquiv : Fin 4 × Fin 64 ≃ Fin (4 * 64)).sum_comp
    (fun l : Fin 256 => if l.val / 64 = j.val then f l else 0)
  rw [← e, Fintype.sum_prod_type, Finset.sum_eq_single j]
  · refine Finset.sum_congr rfl fun r _ => ?_
    have h1 : ((finProdFinEquiv (j, r) : Fin (4 * 64)) : Fin 256).val / 64 = j.val := by
      show (r.val + 64 * j.val) / 64 = j.val
      have := r.isLt; omega
    rw [if_pos h1]
    refine congrArg f (Fin.ext ?_)
    show r.val + 64 * j.val = 64 * j.val + r.val
    omega
  · intro a _ ha
    refine Finset.sum_eq_zero fun r _ => ?_
    have h1 : ¬ ((finProdFinEquiv (a, r) : Fin (4 * 64)) : Fin 256).val / 64 = j.val := by
      show ¬ (r.val + 64 * a.val) / 64 = j.val
      have := r.isLt
      intro h
      exact ha (Fin.ext (by omega))
    rw [if_neg h1]
  · intro h; exact absurd (Finset.mem_univ j) h

/-- Each segment's sum spread over that segment's lanes, the four added from `0`: at lane `l` this is the sum of
    `f` over the 64 lanes of `l`'s segment. -/
theorem seg_select (f : Fin 256 → EReal) (l : Fin 256) :
    ((((0 : EReal)
        + (if l.val / 64 = 0 then (∑ l' : Fin 256, (if l'.val / 64 = 0 then f l' else 0)) else 0))
        + (if l.val / 64 = 1 then (∑ l' : Fin 256, (if l'.val / 64 = 1 then f l' else 0)) else 0))
        + (if l.val / 64 = 2 then (∑ l' : Fin 256, (if l'.val / 64 = 2 then f l' else 0)) else 0))
        + (if l.val / 64 = 3 then (∑ l' : Fin 256, (if l'.val / 64 = 3 then f l' else 0)) else 0)
      = ∑ r : Fin 64, f (pos (patch l) r) := by
  have hl := l.isLt
  have h : l.val / 64 = 0 ∨ l.val / 64 = 1 ∨ l.val / 64 = 2 ∨ l.val / 64 = 3 := by omega
  rcases h with h | h | h | h
  · have hp : patch l = (0 : Fin 4) := Fin.ext h
    rw [hp, ← sum_seg f 0, h]
    simp only [if_pos, if_neg, zero_add, add_zero, Fin.val_zero, OfNat.ofNat_ne_zero, OfNat.zero_ne_ofNat,
      reduceCtorEq, ↓reduceIte, Nat.reduceEqDiff]
  · have hp : patch l = (1 : Fin 4) := Fin.ext h
    rw [hp, ← sum_seg f 1, h]
    simp only [zero_add, add_zero, Fin.val_one, OfNat.ofNat_ne_zero, OfNat.zero_ne_ofNat, OfNat.one_ne_ofNat,
      OfNat.ofNat_ne_one, one_ne_zero, zero_ne_one, ↓reduceIte, Nat.reduceEqDiff]
  · have hp : patch l = (2 : Fin 4) := Fin.ext h
    rw [hp, ← sum_seg f 2, h]
    simp only [zero_add, add_zero, OfNat.ofNat_ne_zero, OfNat.zero_ne_ofNat, OfNat.one_ne_ofNat,
      OfNat.ofNat_ne_one, ↓reduceIte, Nat.reduceEqDiff]
    rfl
  · have hp : patch l = (3 : Fin 4) := Fin.ext h
    rw [hp, ← sum_seg f 3, h]
    simp only [zero_add, add_zero, OfNat.ofNat_ne_zero, OfNat.zero_ne_ofNat, OfNat.one_ne_ofNat,
      OfNat.ofNat_ne_one, ↓reduceIte, Nat.reduceEqDiff]
    rfl

end Cert.KerSums

end
-- ==== Proof.KerRead.lean ====
/-
  The stored block read at an index.

  At channel `c`, row `r` and lane `l` of the block — group `c / 4`, segment `l / 64` — the kernel body's value is

      ((x0 − m) · rsqrt (v + ε) · w0 c + b0 c) · (1 + y0 · logistic y0)

  where `m` is `2⁻¹⁴` times the sum of `x0` over the four channels of the group, the 64 rows and the 64 lanes of the
  segment (`blockSum`), and `v` is `2⁻¹⁴` times the same sum of `(x0 − m)²`. The kernel adds over rows, then
  channels, then lanes; `blockSum` adds over channels, rows, lanes: sums over finite sets commute.
-/
import proofs.«135047_j75144747811287_2_alg».proof.Proof.KerBody
import proofs.«135047_j75144747811287_2_alg».proof.Proof.KerLayout
import proofs.«135047_j75144747811287_2_alg».proof.Proof.KerSums

noncomputable section

open scoped BigOperators

namespace Cert.KerRead

open Idealize.ShloMosaic Idealize.ShloMosaic.ValueIdx Cert.KernelIdeal Cert.KernelIdeal.Gen Cert.KerBody Cert.KerLayout Cert.KerSums
open Cert.Spec (pos patch invN eps one)

/-- Channel `cc` of group `g` of a block of 64 channels. -/
abbrev bchan (g : Fin 16) (cc : Fin 4) : Fin 64 := ⟨4 * g.val + cc.val, by omega⟩
/-- The group of a channel of the block. -/
abbrev bgrp (c : Fin 64) : Fin 16 := ⟨c.val / 4, by omega⟩

/-- The sum of `f` over the four channels of group `g`, the 64 rows and the 64 lanes of segment `j` of a block. -/
def blockSum (f : S1x64x64x256.Idx → EReal) (g : Fin 16) (j : Fin 4) : EReal :=
  ∑ cc : Fin 4, ∑ hh : Fin 64, ∑ ww : Fin 64, f (ix4 (0 : Fin 1) (bchan g cc) hh (pos j ww))

theorem patch_pos (j : Fin 4) (ww : Fin 64) : patch (pos j ww) = j :=
  Fin.ext (by show (64 * j.val + ww.val) / 64 = j.val; have := ww.isLt; omega)

theorem zeros_apply (i : S16x1x1x256.Idx) : zeros i = 0 := Ideal.ofBits_zero_f32

theorem grouped_apply (x0 : Vec Ideal S1x64x64x256 .f32) (g : Fin 16) (cc : Fin 4) (r : Fin 64) (l : Fin 256) :
    grouped x0 (ix4 g cc r l) = x0 (ix4 (0 : Fin 1) (bchan g cc) r l) :=
  (cast_group _ _ g cc r l).trans (shapeCast_1abc_abc_apply _ _ _ r l)

theorem groupSum_apply (a : FVec Ideal S16x4x64x256 .f32) (g : Fin 16) (u u' : Fin 1) (l : Fin 256) :
    groupSum a (ix4 g u u' l) = ∑ cc : Fin 4, ∑ r : Fin 64, a (ix4 g cc r l) :=
  (cast_16_1_1_256 _ _ g u u' l).trans ((red_chans _ _ _ _ g u l).trans
    (Finset.sum_congr rfl fun cc _ => (cast_16_4_1_256 _ _ g cc u l).trans (red_rows _ _ _ _ g cc l)))

theorem mask0_apply (g : Fin 16) (u u' : Fin 1) (l : Fin 256) :
    mask 0#32 64#32 (ix4 g u u' l) = if l.val / 64 = 0 then (1#1 : BitVec 1) else 0#1 := by
  show IntOp.andi (IntOp.cmpi .sge (lanes (ix4 g u u' l)) 0#32) (IntOp.cmpi .slt (lanes (ix4 g u u' l)) 64#32) = _
  rw [show lanes (ix4 g u u' l) = BitVec.ofNat 32 l.val from lane_iota _ g u u' l]
  exact mask0 l
theorem mask1_apply (g : Fin 16) (u u' : Fin 1) (l : Fin 256) :
    mask 64#32 128#32 (ix4 g u u' l) = if l.val / 64 = 1 then (1#1 : BitVec 1) else 0#1 := by
  show IntOp.andi (IntOp.cmpi .sge (lanes (ix4 g u u' l)) 64#32) (IntOp.cmpi .slt (lanes (ix4 g u u' l)) 128#32) = _
  rw [show lanes (ix4 g u u' l) = BitVec.ofNat 32 l.val from lane_iota _ g u u' l]
  exact mask1 l
theorem mask2_apply (g : Fin 16) (u u' : Fin 1) (l : Fin 256) :
    mask 128#32 192#32 (ix4 g u u' l) = if l.val / 64 = 2 then (1#1 : BitVec 1) else 0#1 := by
  show IntOp.andi (IntOp.cmpi .sge (lanes (ix4 g u u' l)) 128#32) (IntOp.cmpi .slt (lanes (ix4 g u u' l)) 192#32) = _
  rw [show lanes (ix4 g u u' l) = BitVec.ofNat 32 l.val from lane_iota _ g u u' l]
  exact mask2 l
theorem mask3_apply (g : Fin 16) (u u' : Fin 1) (l : Fin 256) :
    mask 192#32 256#32 (ix4 g u u' l) = if l.val / 64 = 3 then (1#1 : BitVec 1) else 0#1 := by
  show IntOp.andi (IntOp.cmpi .sge (lanes (ix4 g u u' l)) 192#32) (IntOp.cmpi .slt (lanes (ix4 g u u' l)) 256#32) = _
  rw [show lanes (ix4 g u u' l) = BitVec.ofNat 32 l.val from lane_iota _ g u u' l]
  exact mask3 l

/-- A mask that is segment `k`: the masked sum over all lanes, spread over the segment's lanes. -/
theorem segTerm_apply (mk : IVec S16x1x1x256 1) (k : Nat)
    (hmk : ∀ (g : Fin 16) (u u' : Fin 1) (l : Fin 256), mk (ix4 g u u' l) = if l.val / 64 = k then (1#1 : BitVec 1) else 0#1)
    (v : FVec Ideal S16x1x1x256 .f32) (g : Fin 16) (u u' : Fin 1) (l : Fin 256) :
    segTerm mk v (ix4 g u u' l)
      = if l.val / 64 = k then
          (∑ l' : Fin 256, if l'.val / 64 = k then v (ix4 g (0 : Fin 1) (0 : Fin 1) l') else 0) else 0 := by
  show Scalar.select (mk (ix4 g u u' l)) (broadcastTo S16x1x1x256 _ broadcasts_S16x1x1x1_S16x1x1x256 (ix4 g u u' l))
    (zeros (ix4 g u u' l)) = _
  rw [hmk, select_ite, zeros_apply]
  refine if_congr Iff.rfl ?_ rfl
  refine (bcast_lanes _ _ g u u' l).trans ?_
  refine (congrFun (shapeCast_self _ _) _).trans ?_
  refine (cast_16_1_1_1 _ _ g 0 0 0).trans ?_
  refine (red_lanes _ _ _ _ g 0 0).trans ?_
  refine Finset.sum_congr rfl fun l' _ => ?_
  show Scalar.select (mk (ix4 g 0 0 l')) (v (ix4 g 0 0 l')) (zeros (ix4 g 0 0 l')) = _
  rw [hmk, select_ite, zeros_apply]

theorem segSel_apply (v : FVec Ideal S16x1x1x256 .f32) (g : Fin 16) (u u' : Fin 1) (l : Fin 256) :
    segSel v (ix4 g u u' l) = ∑ r : Fin 64, v (ix4 g (0 : Fin 1) (0 : Fin 1) (pos (patch l) r)) := by
  show (((zeros (ix4 g u u' l) + segTerm (mask 0#32 64#32) v (ix4 g u u' l)) + segTerm (mask 64#32 128#32) v (ix4 g u u' l))
      + segTerm (mask 128#32 192#32) v (ix4 g u u' l)) + segTerm (mask 192#32 256#32) v (ix4 g u u' l) = _
  rw [zeros_apply, segTerm_apply _ 0 mask0_apply, segTerm_apply _ 1 mask1_apply, segTerm_apply _ 2 mask2_apply,
    segTerm_apply _ 3 mask3_apply]
  exact seg_select (fun l' => v (ix4 g 0 0 l')) l

/-- Rows, then channels, then the lanes of the segment: the sum over channels, rows and the segment's lanes. -/
theorem segSel_groupSum_apply (a : FVec Ideal S16x4x64x256 .f32) (g : Fin 16) (u u' : Fin 1) (l : Fin 256) :
    segSel (groupSum a) (ix4 g u u' l)
      = ∑ cc : Fin 4, ∑ hh : Fin 64, ∑ ww : Fin 64, a (ix4 g cc hh (pos (patch l) ww)) := by
  rw [segSel_apply]
  exact (Finset.sum_congr rfl fun ww _ => groupSum_apply a g 0 0 (pos (patch l) ww)).trans
    (Finset.sum_comm.trans (Finset.sum_congr rfl fun cc _ => Finset.sum_comm))

theorem meanT_apply (x0 : Vec Ideal S1x64x64x256 .f32) (g : Fin 16) (u u' : Fin 1) (l : Fin 256) :
    meanT x0 (ix4 g u u' l) = blockSum x0 g (patch l) * invN := by
  show segSel (groupSum (grouped x0)) (ix4 g u u' l) * invN = _
  rw [segSel_groupSum_apply]
  unfold blockSum
  exact congrArg (· * invN) (Finset.sum_congr rfl fun cc _ => Finset.sum_congr rfl fun hh _ =>
    Finset.sum_congr rfl fun ww _ => grouped_apply x0 g cc hh _)

theorem dev_apply (x0 : Vec Ideal S1x64x64x256 .f32) (g : Fin 16) (cc : Fin 4) (r : Fin 64) (l : Fin 256) :
    dev x0 (ix4 g cc r l) = x0 (ix4 (0 : Fin 1) (bchan g cc) r l) - blockSum x0 g (patch l) * invN := by
  show grouped x0 (ix4 g cc r l)
    - broadcastTo S16x4x64x256 (meanT x0) broadcasts_S16x1x1x256_S16x4x64x256 (ix4 g cc r l) = _
  rw [grouped_apply, bcast_block, meanT_apply]

theorem varT_apply (x0 : Vec Ideal S1x64x64x256 .f32) (g : Fin 16) (u u' : Fin 1) (l : Fin 256) :
    varT x0 (ix4 g u u' l)
      = (∑ cc : Fin 4, ∑ hh : Fin 64, ∑ ww : Fin 64,
          (x0 (ix4 (0 : Fin 1) (bchan g cc) hh (pos (patch l) ww)) - blockSum x0 g (patch l) * invN)
            * (x0 (ix4 (0 : Fin 1) (bchan g cc) hh (pos (patch l) ww)) - blockSum x0 g (patch l) * invN)) * invN := by
  show segSel (groupSum (mulf (dev x0) (dev x0))) (ix4 g u u' l) * invN = _
  rw [segSel_groupSum_apply]
  refine congrArg (· * invN) (Finset.sum_congr rfl fun cc _ => Finset.sum_congr rfl fun hh _ =>
    Finset.sum_congr rfl fun ww _ => ?_)
  show dev x0 (ix4 g cc hh (pos (patch l) ww)) * dev x0 (ix4 g cc hh (pos (patch l) ww)) = _
  rw [dev_apply, patch_pos]

theorem perChan_apply (c0 : Vec Ideal S64x1 .f32) (c r : Fin 64) (l : Fin 256) :
    perChan c0 (ix3 c r l) = c0 (ix2 c (0 : Fin 1)) :=
  (bcast_chan _ _ c r l).trans ((cast_64_1_1 _ _ c 0 0).trans (congrFun (shapeCast_self _ _) _))

/-- The stored block at channel `c`, row `r`, lane `l`. -/
theorem body_apply (x0 y0 : Vec Ideal S1x64x64x256 .f32) (w0 b0 : Vec Ideal S64x1 .f32) (c r : Fin 64) (l : Fin 256) :
    body x0 y0 w0 b0 (ix4 (0 : Fin 1) c r l)
      = ((x0 (ix4 (0 : Fin 1) c r l) - blockSum x0 (bgrp c) (patch l) * invN)
            * Ideal.rsqrt ((∑ cc : Fin 4, ∑ hh : Fin 64, ∑ ww : Fin 64,
                (x0 (ix4 (0 : Fin 1) (bchan (bgrp c) cc) hh (pos (patch l) ww)) - blockSum x0 (bgrp c) (patch l) * invN)
                  * (x0 (ix4 (0 : Fin 1) (bchan (bgrp c) cc) hh (pos (patch l) ww)) - blockSum x0 (bgrp c) (patch l) * invN)) * invN
              + eps)
            * w0 (ix2 c (0 : Fin 1)) + b0 (ix2 c (0 : Fin 1)))
          * (one + y0 (ix4 (0 : Fin 1) c r l) * Ideal.logistic (y0 (ix4 (0 : Fin 1) c r l))) := by
  unfold body
  refine (shapeCast_abc_1abc_apply _ _ 0 c r l).trans ?_
  show (shapeCast S64x64x256 (mulf (dev x0) (broadcastTo S16x4x64x256
            (rsqrt (addf (varT x0) (broadcast S16x1x1x256 (Scalar.ofBits (F := Ideal) .f32 0x3727C5AC#32))))
            broadcasts_S16x1x1x256_S16x4x64x256)) shapeCasts_S16x4x64x256_S64x64x256 (ix3 c r l)
          * perChan w0 (ix3 c r l) + perChan b0 (ix3 c r l))
        * (one + shapeCast S64x64x256 y0 shapeCasts_S1x64x64x256_S64x64x256 (ix3 c r l)
            * Ideal.logistic (shapeCast S64x64x256 y0 shapeCasts_S1x64x64x256_S64x64x256 (ix3 c r l))) = _
  rw [cast_ungroup, perChan_apply, perChan_apply, shapeCast_1abc_abc_apply]
  show (dev x0 (ix4 (bgrp c) (⟨c.val % 4, by omega⟩ : Fin 4) r l)
          * Ideal.rsqrt (varT x0 (ix4 (bgrp c) (0 : Fin 1) (0 : Fin 1) l) + eps)
          * w0 (ix2 c (0 : Fin 1)) + b0 (ix2 c (0 : Fin 1))) * _ = _
  rw [dev_apply, varT_apply]
  have hc : bchan (bgrp c) (⟨c.val % 4, by omega⟩ : Fin 4) = c := Fin.ext (by show 4 * (c.val / 4) + c.val % 4 = c.val; omega)
  rw [hc]

end Cert.KerRead

end
-- ==== Proof.KerPoint.lean ====
/-
  One grid point's block of the result is a block of the specification.

  The block at batch entry `b`, channel block `cb` and row patch `hb` holds the array entries
  `(b, 64 cb + ch, 64 hb + r, l)`. Channel `ch` of the block is channel `64 cb + ch` of the array, whose group is
  `16 cb + ch / 4`; channel `cc` of that group is channel `cc` of group `ch / 4` of the block; the block's rows are
  exactly row patch `hb`; and lane `l` lies in column patch `l / 64`. So the sums the kernel body takes over its
  block are the specification's patch sums over the array, and the stored block is the specification read there.
-/
import proofs.«135047_j75144747811287_2_alg».proof.Proof.KerRead

noncomputable section

open scoped BigOperators

namespace Cert.KerPoint

open Idealize.ShloMosaic Idealize.ShloMosaic.ValueIdx Cert.KernelIdeal Cert.KerBody Cert.KerRead Cert.Spec

/-- Channel `ch` of channel block `cb`, as a channel of the array. -/
abbrev achan (cb : Fin 2) (ch : Fin 64) : Fin 128 := ⟨64 * cb.val + ch.val, by omega⟩

/-- Channel `cc` of the array group of a block channel is channel `cc` of the block group of that channel. -/
theorem chan_grp (cb : Fin 2) (ch : Fin 64) (cc : Fin 4) :
    chan (grp (achan cb ch)) cc = achan cb (bchan (bgrp ch) cc) :=
  Fin.ext (by
    show 4 * ((64 * cb.val + ch.val) / 4) + cc.val = 64 * cb.val + (4 * (ch.val / 4) + cc.val)
    omega)

/-- The stored block, at channel `ch`, row `r`, lane `l`, is the specification at `(b, 64 cb + ch, 64 hb + r, l)`,
    when the loaded blocks are the arrays read there. -/
theorem point_eq (X Y : SX.Idx → EReal) (W B : SC.Idx → EReal) (b : Fin 8) (cb : Fin 2) (hb : Fin 4)
    (x0 y0 : Vec Ideal S1x64x64x256 .f32) (w0 b0 : Vec Ideal S64x1 .f32)
    (hx : ∀ (ch r : Fin 64) (l : Fin 256), x0 (ix4 (0 : Fin 1) ch r l) = X (ix4 b (achan cb ch) (pos hb r) l))
    (hy : ∀ (ch r : Fin 64) (l : Fin 256), y0 (ix4 (0 : Fin 1) ch r l) = Y (ix4 b (achan cb ch) (pos hb r) l))
    (hw : ∀ ch : Fin 64, w0 (ix2 ch (0 : Fin 1)) = W (ix1 (achan cb ch)))
    (hb0 : ∀ ch : Fin 64, b0 (ix2 ch (0 : Fin 1)) = B (ix1 (achan cb ch)))
    (ch r : Fin 64) (l : Fin 256) :
    body x0 y0 w0 b0 (ix4 (0 : Fin 1) ch r l) = G X Y W B (ix4 b (achan cb ch) (pos hb r) l) := by
  have hsum : blockSum x0 (bgrp ch) (patch l) = patchSum X b hb (patch l) (grp (achan cb ch)) := by
    unfold blockSum patchSum
    refine Finset.sum_congr rfl fun cc _ => Finset.sum_congr rfl fun hh _ => Finset.sum_congr rfl fun ww _ => ?_
    rw [hx, chan_grp]
  have hmean : blockSum x0 (bgrp ch) (patch l) * invN = mean X b hb (patch l) (grp (achan cb ch)) := by
    rw [hsum]; rfl
  have hvar : (∑ cc : Fin 4, ∑ hh : Fin 64, ∑ ww : Fin 64,
        (x0 (ix4 (0 : Fin 1) (bchan (bgrp ch) cc) hh (pos (patch l) ww)) - blockSum x0 (bgrp ch) (patch l) * invN)
          * (x0 (ix4 (0 : Fin 1) (bchan (bgrp ch) cc) hh (pos (patch l) ww)) - blockSum x0 (bgrp ch) (patch l) * invN)) * invN
      = var X b hb (patch l) (grp (achan cb ch)) := by
    unfold var patchSum sqdev
    refine congrArg (· * invN) (Finset.sum_congr rfl fun cc _ => Finset.sum_congr rfl fun hh _ =>
      Finset.sum_congr rfl fun ww _ => ?_)
    rw [hx, chan_grp, hmean]
  rw [body_apply, hvar, hmean, hx, hy, hw, hb0, G_ix4, patch_pos]

/-- The same at any index of the block, by its coordinates (the leading coordinate of a block is `0`). -/
theorem point_eq_idx (X Y : SX.Idx → EReal) (W B : SC.Idx → EReal) (b : Fin 8) (cb : Fin 2) (hb : Fin 4)
    (x0 y0 : Vec Ideal S1x64x64x256 .f32) (w0 b0 : Vec Ideal S64x1 .f32)
    (hx : ∀ (ch r : Fin 64) (l : Fin 256), x0 (ix4 (0 : Fin 1) ch r l) = X (ix4 b (achan cb ch) (pos hb r) l))
    (hy : ∀ (ch r : Fin 64) (l : Fin 256), y0 (ix4 (0 : Fin 1) ch r l) = Y (ix4 b (achan cb ch) (pos hb r) l))
    (hw : ∀ ch : Fin 64, w0 (ix2 ch (0 : Fin 1)) = W (ix1 (achan cb ch)))
    (hb0 : ∀ ch : Fin 64, b0 (ix2 ch (0 : Fin 1)) = B (ix1 (achan cb ch)))
    (y : S1x64x64x256.Idx) :
    body x0 y0 w0 b0 y = G X Y W B (ix4 b (achan cb (y 1)) (pos hb (y 2)) (y 3)) := by
  obtain ⟨u, ch, r, l, rfl⟩ : ∃ (u : Fin 1) (ch r : Fin 64) (l : Fin 256), y = ix4 u ch r l :=
    ⟨y 0, y 1, y 2, y 3, eq_ix4 y⟩
  have hu : u = 0 := Fin.ext (by omega)
  subst hu
  exact point_eq X Y W B b cb hb x0 y0 w0 b0 hx hy hw hb0 ch r l

end Cert.KerPoint

end
-- ==== Proof.KerBlocks.lean ====
/-
  From what each grid point writes back to the whole result array.

  The grid has 8 · 2 · 4 points: a batch entry `b`, a block `cb` of 64 channels and a row patch `hb`. At a point the
  blocks of `x`, `y` and the result are the array entries `(b, 64 cb + ch, 64 hb + r, l)`, all 256 lanes, and the
  blocks of the per-channel scale and shift are channels `64 cb + ch` of the two arguments viewed as columns. So what
  the point writes back is the specification read through its block (`flushed_eq`, by the per-point lemma); the 64
  blocks cover every index of the array — index `(b, c, h, l)` lies in the block of point `(b, c / 64, h / 64)` —, so
  after the run the result array is the specification of the argument arrays (`final`, `run`).
-/
import proofs.«135047_j75144747811287_2_alg».proof.Proof.Gen.KernelIdeal.Value
import proofs.«135047_j75144747811287_2_alg».proof.Proof.KerPoint
import Idealize.ShloMosaic.Lib.StableHlo.Run

set_option maxRecDepth 16384

noncomputable section

open scoped BigOperators

namespace Cert.KerBlocks

open Idealize.ShloMosaic Idealize.ShloMosaic.ValueIdx Idealize.ShloMosaic.TcCoe Idealize.SL.Sem
open Cert.KernelIdeal Cert.KernelIdeal.Gen Cert.KernelIdeal.Value Cert.KerBody Cert.KerRead Cert.KerPoint
open Idealize.ShloMosaic.Pipeline (Dat)
open Cert.Spec (pos patch)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The index maps over the grid: every input block moves with the output block — the two columns with its channel
    block —, and the output block's indices stay in their ranges. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = win0_4.index t (2 : Fin 4) ∧ win0_0.index t (3 : Fin 4) = win0_4.index t (3 : Fin 4)
    ∧ win0_1.index t (0 : Fin 4) = win0_4.index t (0 : Fin 4) ∧ win0_1.index t (1 : Fin 4) = win0_4.index t (1 : Fin 4)
    ∧ win0_1.index t (2 : Fin 4) = win0_4.index t (2 : Fin 4) ∧ win0_1.index t (3 : Fin 4) = win0_4.index t (3 : Fin 4)
    ∧ win0_2.index t (0 : Fin 2) = win0_4.index t (1 : Fin 4) ∧ win0_2.index t (1 : Fin 2) = 0
    ∧ win0_3.index t (0 : Fin 2) = win0_4.index t (1 : Fin 4) ∧ win0_3.index t (1 : Fin 2) = 0
    ∧ win0_4.index t (0 : Fin 4) ≤ 7 ∧ win0_4.index t (1 : Fin 4) ≤ 1 ∧ win0_4.index t (2 : Fin 4) ≤ 3
    ∧ win0_4.index t (3 : Fin 4) = 0 :=
  (by decide +kernel : ∀ t : Fin grid0.N, _)

/-- Every block of the array is some point's. -/
theorem idx_onto : ∀ (q0 : Fin 8) (q1 : Fin 2) (q2 : Fin 4), ∃ t : Fin cfg0.N, win0_4.index t = ![q0.val, q1.val, q2.val, 0] :=
  (by decide +kernel : ∀ (q0 : Fin 8) (q1 : Fin 2) (q2 : Fin 4), ∃ t : Fin grid0.N, win0_4.index t = ![q0.val, q1.val, q2.val, 0])

/-- The per-channel scale as the region finds it: the argument viewed as a column. -/
theorem V_scale (c : Dev nD) :
    (V m c main_v0 : S128x1.Idx → EReal) = shapeCast S128x1 (m ((c : Thread nD τ).loc main_arg2)) shapeCasts_S128_S128x1 := by
  dsimp only [Gen.V, Gen.hostOps0]; after_results; rfl

/-- The per-channel shift as the region finds it. -/
theorem V_shift (c : Dev nD) :
    (V m c main_v1 : S128x1.Idx → EReal) = shapeCast S128x1 (m ((c : Thread nD τ).loc main_arg3)) shapeCasts_S128_S128x1 := by
  dsimp only [Gen.V, Gen.hostOps0]; after_results; rfl

/-- A `[128]` array viewed as a column reads, at `(a, ·)`, the array at `a`. -/
theorem cast_col {α : Type} (x : (⟨1, ![128]⟩ : Shape).Idx → α) (h : (⟨1, ![128]⟩ : Shape).ShapeCasts ⟨2, ![128, 1]⟩)
    (k : (⟨2, ![128, 1]⟩ : Shape).Idx) :
    shapeCast ⟨2, ![128, 1]⟩ x h k = x (ix1 (⟨(k 0).val, (k 0).isLt⟩ : Fin 128)) :=
  shapeCast_apply x h _ _ (by
    have hu : (k 1).val < 1 := (k 1).isLt
    rw [Shape.rowMajor_val_one, Shape.rowMajor_val_two]
    show (k 0).val = (k 0).val * 1 + (k 1).val
    omega)

/-- The result array: the specification of the four argument arrays. -/
abbrev result (c : Dev nD) : S8x128x256x256.Idx → EReal :=
  Cert.Spec.G (m ((c : Thread nD τ).loc main_arg0)) (m ((c : Thread nD τ).loc main_arg1))
    (m ((c : Thread nD τ).loc main_arg2)) (m ((c : Thread nD τ).loc main_arg3))

/-- What point `t` writes back is block `t` of the specification of the argument arrays. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz4]
  simp only [View.ld_unit_zero (S := S1x64x64x256) hz4, View.ld_unit_zero (S := S64x1) hz2]
  rw [payload_eq]
  obtain ⟨e00, e01, e02, e03, e10, e11, e12, e13, e20, e21, e30, e31, l0, l1, l2, z3⟩ := idx_facts t
  funext j
  show body (iblk m c 0 t) (iblk m c 1 t) (iblk m c 2 t) (iblk m c 3 t) j = result m c (((cfg0.win 4).blk t).view.emb j)
  have hj0 : (j 0).val < 1 := (j 0).isLt
  refine (point_eq_idx (m ((c : Thread nD τ).loc main_arg0)) (m ((c : Thread nD τ).loc main_arg1))
    (m ((c : Thread nD τ).loc main_arg2)) (m ((c : Thread nD τ).loc main_arg3))
    (⟨win0_4.index t (0 : Fin 4), by omega⟩ : Fin 8) (⟨win0_4.index t (1 : Fin 4), by omega⟩ : Fin 2)
    (⟨win0_4.index t (2 : Fin 4), by omega⟩ : Fin 4) _ _ _ _ ?_ ?_ ?_ ?_ j).trans ?_
  · intro ch r l
    show V m c main_arg0 (((cfg0.win 0).blk t).view.emb (ix4 (0 : Fin 1) ch r l)) = _
    rw [V_main_arg0]
    refine congrArg _ (funext fun a => Fin.ext ?_)
    match a with
    | ⟨0, _⟩ => show win0_0.index t (0 : Fin 4) * 1 + 1 * 0 = win0_4.index t (0 : Fin 4); omega
    | ⟨1, _⟩ => show win0_0.index t (1 : Fin 4) * 64 + 1 * ch.val = 64 * win0_4.index t (1 : Fin 4) + ch.val; omega
    | ⟨2, _⟩ => show win0_0.index t (2 : Fin 4) * 64 + 1 * r.val = 64 * win0_4.index t (2 : Fin 4) + r.val; omega
    | ⟨3, _⟩ => show win0_0.index t (3 : Fin 4) * 256 + 1 * l.val = l.val; omega
  · intro ch r l
    show V m c main_arg1 (((cfg0.win 1).blk t).view.emb (ix4 (0 : Fin 1) ch r l)) = _
    rw [V_main_arg1]
    refine congrArg _ (funext fun a => Fin.ext ?_)
    match a with
    | ⟨0, _⟩ => show win0_1.index t (0 : Fin 4) * 1 + 1 * 0 = win0_4.index t (0 : Fin 4); omega
    | ⟨1, _⟩ => show win0_1.index t (1 : Fin 4) * 64 + 1 * ch.val = 64 * win0_4.index t (1 : Fin 4) + ch.val; omega
    | ⟨2, _⟩ => show win0_1.index t (2 : Fin 4) * 64 + 1 * r.val = 64 * win0_4.index t (2 : Fin 4) + r.val; omega
    | ⟨3, _⟩ => show win0_1.index t (3 : Fin 4) * 256 + 1 * l.val = l.val; omega
  · intro ch
    show V m c main_v0 (((cfg0.win 2).blk t).view.emb (ix2 ch (0 : Fin 1))) = _
    rw [V_scale]
    refine (cast_col _ _ _).trans (congrArg _ (congrArg ix1 (Fin.ext ?_)))
    show win0_2.index t (0 : Fin 2) * 64 + 1 * ch.val = 64 * win0_4.index t (1 : Fin 4) + ch.val
    omega
  · intro ch
    show V m c main_v1 (((cfg0.win 3).blk t).view.emb (ix2 ch (0 : Fin 1))) = _
    rw [V_shift]
    refine (cast_col _ _ _).trans (congrArg _ (congrArg ix1 (Fin.ext ?_)))
    show win0_3.index t (0 : Fin 2) * 64 + 1 * ch.val = 64 * win0_4.index t (1 : Fin 4) + ch.val
    omega
  · refine congrArg (result m c) (funext fun a => Fin.ext ?_)
    match a with
    | ⟨0, _⟩ => show win0_4.index t (0 : Fin 4) = win0_4.index t (0 : Fin 4) * 1 + 1 * (j 0).val; omega
    | ⟨1, _⟩ => show 64 * win0_4.index t (1 : Fin 4) + (j 1).val = win0_4.index t (1 : Fin 4) * 64 + 1 * (j 1).val; omega
    | ⟨2, _⟩ => show 64 * win0_4.index t (2 : Fin 4) + (j 2).val = win0_4.index t (2 : Fin 4) * 64 + 1 * (j 2).val; omega
    | ⟨3, _⟩ => show (j 3).val = win0_4.index t (3 : Fin 4) * 256 + 1 * (j 3).val; omega

/-- An index of the array is in point `t`'s block iff each coordinate is in the block's range on its axis. -/
theorem mem_blk (t : Fin cfg0.N) (i : S8x128x256x256.Idx) :
    i ∈ ((cfg0.win 4).blk t).view.set ↔ ∀ a : Fin 4, win0_4.index t a * S1x64x64x256.size a ≤ (i a).val
      ∧ (i a).val < win0_4.index t a * S1x64x64x256.size a + S1x64x64x256.size a := by
  show i ∈ ((View.whole main_v2).slice (win0_4.rect t)).set ↔ _
  rw [View.set_slice_whole, Rect.mem_set_unit]
  exact Iff.rfl

/-- Every index of the array is in some point's block: the point of its batch entry, channel block and row patch. -/
theorem cover (i : S8x128x256x256.Idx) :
    ∃ t : Fin cfg0.N, (cfg0.win 4).flush t = true ∧ i ∈ ((cfg0.win 4).blk t).view.set := by
  have h0 : (i 0).val < 8 := (i 0).isLt
  have h1 : (i 1).val < 128 := (i 1).isLt
  have h2 : (i 2).val < 256 := (i 2).isLt
  have h3 : (i 3).val < 256 := (i 3).isLt
  obtain ⟨t, ht⟩ := idx_onto ⟨(i 0).val, h0⟩ ⟨(i 1).val / 64, by omega⟩ ⟨(i 2).val / 64, by omega⟩
  have q0 : win0_4.index t (0 : Fin 4) = (i 0).val := congrFun ht 0
  have q1 : win0_4.index t (1 : Fin 4) = (i 1).val / 64 := congrFun ht 1
  have q2 : win0_4.index t (2 : Fin 4) = (i 2).val / 64 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 64 ≤ (i 1).val ∧ (i 1).val < win0_4.index t (1 : Fin 4) * 64 + 64; omega
  | ⟨2, _⟩ => show win0_4.index t (2 : Fin 4) * 64 ≤ (i 2).val ∧ (i 2).val < win0_4.index t (2 : Fin 4) * 64 + 64; omega
  | ⟨3, _⟩ => show win0_4.index t (3 : Fin 4) * 256 ≤ (i 3).val ∧ (i 3).val < win0_4.index t (3 : Fin 4) * 256 + 256; omega

/-- The result array after the run is the specification of the argument arrays. -/
theorem final (c : Dev nD) : (dats m 0 c).arrAt 4 cfg0.N = result m c :=
  (dats m 0 c).arrAt_eq_of_cover 4 (result m c) (fun t _ => flushed_eq m c t) cover

/-- The kernel's run: it ends, nothing faults, the result array is the specification and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KerBlocks

end
-- ==== Proof.RefTerm.lean ====
/-
  The array the reference computes, as a chain of named stages.

  The arguments are x, y : [8, 128, 256, 256] and w, b : [128]. Each stage below is a few pure operations of the
  stages before it, spelled with the operations, shape facts and argument order of the printed reference: the patch view of
  an array, its grouped view, the mean over the 4 * 64 * 64 entries of a group in a patch, the variance (with
  its own mean, its divisor 16384 - 0 and the guard against a divisor that is not positive), the normalized
  array, the per-channel scale and shift, the gate 1 + y * logistic y computed as 1 + y * (1 / (1 + exp (-y))),
  and the way back to [8, 128, 256, 256].
-/
import proofs.«135047_j75144747811287_2_alg».proof.ReferenceIdeal

noncomputable section

namespace Cert.ReferenceIdeal.RefTerm

open Idealize.ShloMosaic Cert.ReferenceIdeal
open Cert.ReferenceIdeal.Facts₀

variable {F : FTy → Type} [FloatOps F] [Facts]

/-- The patch view: rows and columns cut into four patches of 64, the patch coordinates moved in front of the
    channel: entry (n, i, j, ch, r, c) is entry (n, ch, 64 i + r, 64 j + c) of the array. -/
def patches (x : FVec F S8x128x256x256 .f32) : FVec F S8x4x4x128x64x64 .f32 :=
  transpose (s := S8x128x4x64x4x64) S8x4x4x128x64x64 [0, 2, 4, 1, 3, 5]
    (shapeCast (s := S8x128x256x256) S8x128x4x64x4x64 x shapeCasts_S8x128x256x256_S8x128x4x64x4x64)
    transposes_S8x128x4x64x4x64_S8x4x4x128x64x64_0_2_4_1_3_5

/-- The grouped view of a patch view: the 128 channels as 32 groups of 4. -/
def grouped (p : FVec F S8x4x4x128x64x64 .f32) : FVec F S8x4x4x32x4x64x64 .f32 :=
  shapeCast (s := S8x4x4x128x64x64) S8x4x4x32x4x64x64 p shapeCasts_S8x4x4x128x64x64_S8x4x4x32x4x64x64

/-- A per-group array repeated over the 4 * 64 * 64 entries of each group. -/
def spread (v : FVec F S8x4x4x32x1x1x1 .f32) : FVec F S8x4x4x32x4x64x64 .f32 :=
  broadcastInDim (s := S8x4x4x32x1x1x1) S8x4x4x32x4x64x64 ![0, 1, 2, 3, 4, 5, 6]
    bcast_S8x4x4x32x1x1x1_S8x4x4x32x4x64x64_0_1_2_3_4_5_6 v

/-- A scalar repeated once per group. -/
def perGroup (c : FVec F S_ .f32) : FVec F S8x4x4x32x1x1x1 .f32 :=
  broadcastInDim (s := S_) S8x4x4x32x1x1x1 ![] bcast_S_S8x4x4x32x1x1x1 c

/-- The sum over the entries of each group (from the initial value zero), one per group, with the three summed axes
    kept at size one. -/
def groupSum (g : FVec F S8x4x4x32x4x64x64 .f32) : FVec F S8x4x4x32x1x1x1 .f32 :=
  broadcastInDim (s := S8x4x4x32) S8x4x4x32x1x1x1 ![0, 1, 2, 3] bcast_S8x4x4x32_S8x4x4x32x1x1x1_0_1_2_3
    (Host.reduceAdd g (constant S_ .f32 0x00000000#32) reducesTo_S8x4x4x32x4x64x64_S8x4x4x32_d4_5_6 h_S_)

/-- The mean of each group: its sum divided by 16384, the number of its entries. -/
def mean (g : FVec F S8x4x4x32x4x64x64 .f32) : FVec F S8x4x4x32x1x1x1 .f32 :=
  Host.divf (groupSum g) (perGroup (constant S_ .f32 0x46800000#32))

/-- The deviation of every entry from the mean of its group. -/
def deviation (g : FVec F S8x4x4x32x4x64x64 .f32) : FVec F S8x4x4x32x4x64x64 .f32 :=
  subf g (spread (mean g))

/-- The variance's divisor: 16384 minus the correction 0, the correction an integer converted to a float. -/
def divisor : FVec F S_ .f32 :=
  subf (constant S_ .f32 0x46800000#32) (sitofp .f32 (constantI S_ 32 0#32))

/-- The variance of each group: the sum of the squared deviations over the divisor where the divisor is
    positive, and the word 0x7FC00000 where it is not. -/
def variance (g : FVec F S8x4x4x32x4x64x64 .f32) : FVec F S8x4x4x32x1x1x1 .f32 :=
  select
    (broadcastInDim (s := S_) S8x4x4x32x1x1x1 ![] bcast_S_S8x4x4x32x1x1x1
      (cmpf .ogt (divisor (F := F)) (constant S_ .f32 0x00000000#32)))
    (Host.divf (groupSum (mulf (deviation g) (deviation g))) (perGroup divisor))
    (perGroup (constant S_ .f32 0x7FC00000#32))

/-- The normalized array, back in the patch view: the deviation times the reciprocal square root of the
    variance plus the guard (the f32 nearest 1e-5). -/
def normalized (g : FVec F S8x4x4x32x4x64x64 .f32) : FVec F S8x4x4x128x64x64 .f32 :=
  shapeCast (s := S8x4x4x32x4x64x64) S8x4x4x128x64x64
    (mulf (deviation g) (spread (Host.rsqrt (addf (variance g) (perGroup (constant S_ .f32 0x3727C5AC#32))))))
    shapeCasts_S8x4x4x32x4x64x64_S8x4x4x128x64x64

/-- A per-channel array repeated over the batch, the patches and the entries of a patch. -/
def perChannel (w : FVec F S128 .f32) : FVec F S8x4x4x128x64x64 .f32 :=
  broadcastInDim (s := S1x1x1x128x1x1) S8x4x4x128x64x64 ![0, 1, 2, 3, 4, 5] bcast_S1x1x1x128x1x1_S8x4x4x128x64x64_0_1_2_3_4_5
    (broadcastInDim (s := S128x1x1) S1x1x1x128x1x1 ![3, 4, 5] bcast_S128x1x1_S1x1x1x128x1x1_3_4_5
      (broadcastInDim (s := S128) S128x1x1 ![0] bcast_S128_S128x1x1_0 w))

/-- The scale and shift per channel. -/
def affine (n : FVec F S8x4x4x128x64x64 .f32) (w b : FVec F S128 .f32) : FVec F S8x4x4x128x64x64 .f32 :=
  addf (mulf n (perChannel w)) (perChannel b)

/-- The constant one at every entry of a patch view. -/
def ones : FVec F S8x4x4x128x64x64 .f32 :=
  broadcastInDim (s := S_) S8x4x4x128x64x64 ![] bcast_S_S8x4x4x128x64x64 (constant S_ .f32 0x3F800000#32)

/-- a * (1 / (1 + exp (-a))), entry by entry. -/
def silu (a : FVec F S8x4x4x128x64x64 .f32) : FVec F S8x4x4x128x64x64 .f32 :=
  mulf a (Host.divf ones (addf ones (Host.exp (Host.negf a))))

/-- The gated product: the first array times one plus the second. -/
def gated (a s : FVec F S8x4x4x128x64x64 .f32) : FVec F S8x4x4x128x64x64 .f32 :=
  mulf a (addf ones s)

/-- From the patch view back to [8, 128, 256, 256]. -/
def unpatch (p : FVec F S8x4x4x128x64x64 .f32) : FVec F S8x128x256x256 .f32 :=
  shapeCast (s := S8x128x4x64x4x64) S8x128x256x256
    (transpose (s := S8x4x4x128x64x64) S8x128x4x64x4x64 [0, 3, 1, 4, 2, 5] p
      transposes_S8x4x4x128x64x64_S8x128x4x64x4x64_0_3_1_4_2_5)
    shapeCasts_S8x128x4x64x4x64_S8x128x256x256

/-- The result: x normalized per group and patch, scaled and shifted per channel, times one plus silu y. -/
def out (x y : FVec F S8x128x256x256 .f32) (w b : FVec F S128 .f32) : FVec F S8x128x256x256 .f32 :=
  unpatch (gated (affine (normalized (grouped (patches x))) w b) (silu (patches y)))

end Cert.ReferenceIdeal.RefTerm

end
-- ==== Proof.RefRun.lean ====
/-
  The reference's run, read back: @main as the list of its sixty-seven operations in order, the three outlined
  functions' operations in place of their calls (the variance's twenty, the guarded selection's three inside it, the
  gate's nine), each over the buffers of its call; every weakly fair execution of the program terminates with the
  result buffer at RefTerm.out of the argument arrays and the argument arrays unchanged.
-/
import proofs.«135047_j75144747811287_2_alg».proof.Proof.RefTerm
import proofs.«135047_j75144747811287_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the patch and grouped views and the mean (twelve), the
    variance (twenty, the last three of them the selection between the quotient and the not-a-number word), the
    normalization and the scale and shift (seventeen), the gate y * (1 / (1 + exp (-y))) (nine), and the product,
    the transpose and the reshape back (six). -/
abbrev ops : List (HloOp τ sig (Elt F)) :=
  [
    StableHlo.reshape main_arg0 main_v0 rfl shapeCasts_S8x128x256x256_S8x128x4x64x4x64,
    StableHlo.unary main_v0 main_v1 ((transpose S8x4x4x128x64x64 [0, 2, 4, 1, 3, 5] · transposes_S8x128x4x64x4x64_S8x4x4x128x64x64_0_2_4_1_3_5) : (⟨S8x128x4x64x4x64, .f32⟩ : BufTy).Contents (Elt F) → (⟨S8x4x4x128x64x64, .f32⟩ : BufTy).Contents (Elt F)),
    StableHlo.reshape main_arg1 main_v2 rfl shapeCasts_S8x128x256x256_S8x128x4x64x4x64,
    StableHlo.unary main_v2 main_v3 ((transpose S8x4x4x128x64x64 [0, 2, 4, 1, 3, 5] · transposes_S8x128x4x64x4x64_S8x4x4x128x64x64_0_2_4_1_3_5) : (⟨S8x128x4x64x4x64, .f32⟩ : BufTy).Contents (Elt F) → (⟨S8x4x4x128x64x64, .f32⟩ : BufTy).Contents (Elt F)),
    StableHlo.reshape main_v1 main_v4 rfl shapeCasts_S8x4x4x128x64x64_S8x4x4x32x4x64x64,
    StableHlo.nullary main_cst (constant S_ .f32 0x00000000#32),
    StableHlo.binary main_v4 main_cst main_v5 ((fun x v => Host.reduceAdd x v reducesTo_S8x4x4x32x4x64x64_S8x4x4x32_d4_5_6 h_S_) : (⟨S8x4x4x32x4x64x64, .f32⟩ : BufTy).Contents (Elt F) → (⟨S_, .f32⟩ : BufTy).Contents (Elt F) → (⟨S8x4x4x32, .f32⟩ : BufTy).Contents (Elt F)),
    StableHlo.unary main_v5 main_v6 (broadcastInDim S8x4x4x32x1x1x1 ![0, 1, 2, 3] bcast_S8x4x4x32_S8x4x4x32x1x1x1_0_1_2_3 : (⟨S8x4x4x32, .f32⟩ : BufTy).Contents (Elt F) → (⟨S8x4x4x32x1x1x1, .f32⟩ : BufTy).Contents (Elt F)),
    StableHlo.nullary main_cst_0 (constant S_ .f32 0x46800000#32),
    StableHlo.unary main_cst_0 main_v7 (broadcastInDim S8x4x4x32x1x1x1 ![] bcast_S_S8x4x4x32x1x1x1 : (⟨S_, .f32⟩ : BufTy).Contents (Elt F) → (⟨S8x4x4x32x1x1x1, .f32⟩ : BufTy).Contents (Elt F)),
    StableHlo.binary main_v6 main_v7 main_v8 (Host.divf : (⟨S8x4x4x32x1x1x1, .f32⟩ : BufTy).Contents (Elt F) → (⟨S8x4x4x32x1x1x1, .f32⟩ : BufTy).Contents (Elt F) → (⟨S8x4x4x32x1x1x1, .f32⟩ : BufTy).Contents (Elt F)),
    StableHlo.nullary main_c (constantI S_ 32 0#32),
    StableHlo.TRef.nullary main_call0.cst (constant S_ .f32 0x00000000#32),
    StableHlo.TRef.binary (.of main_v4 : TRef sig ⟨S8x4x4x32x4x64x64, .f32⟩) main_call0.cst main_call0.v0 (fun x v => Host.reduceAdd x v reducesTo_S8x4x4x32x4x64x64_S8x4x4x32_d4_5_6 h_S_),
    StableHlo.TRef.unary main_call0.v0 main_call0.v1 (broadcastInDim S8x4x4x32x1x1x1 ![0, 1, 2, 3] bcast_S8x4x4x32_S8x4x4x32x1x1x1_0_1_2_3),
    StableHlo.TRef.nullary main_call0.cst_0 (constant S_ .f32 0x46800000#32),
    StableHlo.TRef.unary main_call0.cst_0 main_call0.v2 (broadcastInDim S8x4x4x32x1x1x1 ![] bcast_S_S8x4x4x32x1x1x1),
    StableHlo.TRef.binary main_call0.v1 main_call0.v2 main_call0.v3 Host.divf,
    StableHlo.TRef.unary main_call0.v3 main_call0.v4 (broadcastInDim S8x4x4x32x4x64x64 ![0, 1, 2, 3, 4, 5, 6] bcast_S8x4x4x32x1x1x1_S8x4x4x32x4x64x64_0_1_2_3_4_5_6),
    StableHlo.TRef.binary (.of main_v4 : TRef sig ⟨S8x4x4x32x4x64x64, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x46800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x4x4x32x4x64x64_S8x4x4x32_d4_5_6 h_S_),
    StableHlo.TRef.unary main_call0.v9 main_call0.v10 (broadcastInDim S8x4x4x32x1x1x1 ![0, 1, 2, 3] bcast_S8x4x4x32_S8x4x4x32x1x1x1_0_1_2_3),
    StableHlo.TRef.unary main_call0.v8 main_call0.v11 (broadcastInDim S8x4x4x32x1x1x1 ![] bcast_S_S8x4x4x32x1x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8x4x4x32x1x1x1 ![] bcast_S_S8x4x4x32x1x1x1),
    StableHlo.TRef.ternary main_call0.v13 main_call0.v12 main_call0.call0.v1 main_call0.call0.v2 (fun p a b => select (broadcastInDim S8x4x4x32x1x1x1 ![] bcast_S_S8x4x4x32x1x1x1 p) a b),
    StableHlo.unary main_v8 main_v10 (broadcastInDim S8x4x4x32x4x64x64 ![0, 1, 2, 3, 4, 5, 6] bcast_S8x4x4x32x1x1x1_S8x4x4x32x4x64x64_0_1_2_3_4_5_6 : (⟨S8x4x4x32x1x1x1, .f32⟩ : BufTy).Contents (Elt F) → (⟨S8x4x4x32x4x64x64, .f32⟩ : BufTy).Contents (Elt F)),
    StableHlo.binary main_v4 main_v10 main_v11 (subf : (⟨S8x4x4x32x4x64x64, .f32⟩ : BufTy).Contents (Elt F) → (⟨S8x4x4x32x4x64x64, .f32⟩ : BufTy).Contents (Elt F) → (⟨S8x4x4x32x4x64x64, .f32⟩ : BufTy).Contents (Elt F)),
    StableHlo.nullary main_cst_1 (constant S_ .f32 0x3727C5AC#32),
    StableHlo.unary main_cst_1 main_v12 (broadcastInDim S8x4x4x32x1x1x1 ![] bcast_S_S8x4x4x32x1x1x1 : (⟨S_, .f32⟩ : BufTy).Contents (Elt F) → (⟨S8x4x4x32x1x1x1, .f32⟩ : BufTy).Contents (Elt F)),
    StableHlo.binary main_v9 main_v12 main_v13 (addf : (⟨S8x4x4x32x1x1x1, .f32⟩ : BufTy).Contents (Elt F) → (⟨S8x4x4x32x1x1x1, .f32⟩ : BufTy).Contents (Elt F) → (⟨S8x4x4x32x1x1x1, .f32⟩ : BufTy).Contents (Elt F)),
    StableHlo.unary main_v13 main_v14 (Host.rsqrt : (⟨S8x4x4x32x1x1x1, .f32⟩ : BufTy).Contents (Elt F) → (⟨S8x4x4x32x1x1x1, .f32⟩ : BufTy).Contents (Elt F)),
    StableHlo.unary main_v14 main_v15 (broadcastInDim S8x4x4x32x4x64x64 ![0, 1, 2, 3, 4, 5, 6] bcast_S8x4x4x32x1x1x1_S8x4x4x32x4x64x64_0_1_2_3_4_5_6 : (⟨S8x4x4x32x1x1x1, .f32⟩ : BufTy).Contents (Elt F) → (⟨S8x4x4x32x4x64x64, .f32⟩ : BufTy).Contents (Elt F)),
    StableHlo.binary main_v11 main_v15 main_v16 (mulf : (⟨S8x4x4x32x4x64x64, .f32⟩ : BufTy).Contents (Elt F) → (⟨S8x4x4x32x4x64x64, .f32⟩ : BufTy).Contents (Elt F) → (⟨S8x4x4x32x4x64x64, .f32⟩ : BufTy).Contents (Elt F)),
    StableHlo.reshape main_v16 main_v17 rfl shapeCasts_S8x4x4x32x4x64x64_S8x4x4x128x64x64,
    StableHlo.unary main_arg2 main_v18 (broadcastInDim S128x1x1 ![0] bcast_S128_S128x1x1_0 : (⟨S128, .f32⟩ : BufTy).Contents (Elt F) → (⟨S128x1x1, .f32⟩ : BufTy).Contents (Elt F)),
    StableHlo.unary main_v18 main_v19 (broadcastInDim S1x1x1x128x1x1 ![3, 4, 5] bcast_S128x1x1_S1x1x1x128x1x1_3_4_5 : (⟨S128x1x1, .f32⟩ : BufTy).Contents (Elt F) → (⟨S1x1x1x128x1x1, .f32⟩ : BufTy).Contents (Elt F)),
    StableHlo.unary main_v19 main_v20 (broadcastInDim S8x4x4x128x64x64 ![0, 1, 2, 3, 4, 5] bcast_S1x1x1x128x1x1_S8x4x4x128x64x64_0_1_2_3_4_5 : (⟨S1x1x1x128x1x1, .f32⟩ : BufTy).Contents (Elt F) → (⟨S8x4x4x128x64x64, .f32⟩ : BufTy).Contents (Elt F)),
    StableHlo.binary main_v17 main_v20 main_v21 (mulf : (⟨S8x4x4x128x64x64, .f32⟩ : BufTy).Contents (Elt F) → (⟨S8x4x4x128x64x64, .f32⟩ : BufTy).Contents (Elt F) → (⟨S8x4x4x128x64x64, .f32⟩ : BufTy).Contents (Elt F)),
    StableHlo.unary main_arg3 main_v22 (broadcastInDim S128x1x1 ![0] bcast_S128_S128x1x1_0 : (⟨S128, .f32⟩ : BufTy).Contents (Elt F) → (⟨S128x1x1, .f32⟩ : BufTy).Contents (Elt F)),
    StableHlo.unary main_v22 main_v23 (broadcastInDim S1x1x1x128x1x1 ![3, 4, 5] bcast_S128x1x1_S1x1x1x128x1x1_3_4_5 : (⟨S128x1x1, .f32⟩ : BufTy).Contents (Elt F) → (⟨S1x1x1x128x1x1, .f32⟩ : BufTy).Contents (Elt F)),
    StableHlo.unary main_v23 main_v24 (broadcastInDim S8x4x4x128x64x64 ![0, 1, 2, 3, 4, 5] bcast_S1x1x1x128x1x1_S8x4x4x128x64x64_0_1_2_3_4_5 : (⟨S1x1x1x128x1x1, .f32⟩ : BufTy).Contents (Elt F) → (⟨S8x4x4x128x64x64, .f32⟩ : BufTy).Contents (Elt F)),
    StableHlo.binary main_v21 main_v24 main_v25 (addf : (⟨S8x4x4x128x64x64, .f32⟩ : BufTy).Contents (Elt F) → (⟨S8x4x4x128x64x64, .f32⟩ : BufTy).Contents (Elt F) → (⟨S8x4x4x128x64x64, .f32⟩ : BufTy).Contents (Elt F)),
    StableHlo.TRef.unary (.of main_v3 : TRef sig ⟨S8x4x4x128x64x64, .f32⟩) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S8x4x4x128x64x64 ![] bcast_S_S8x4x4x128x64x64),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S8x4x4x128x64x64 ![] bcast_S_S8x4x4x128x64x64),
    StableHlo.TRef.binary main_call1.v4 main_call1.v3 main_call1.v5 Host.divf,
    StableHlo.TRef.binary (.of main_v3 : TRef sig ⟨S8x4x4x128x64x64, .f32⟩) main_call1.v5 main_call1.v6 mulf,
    StableHlo.nullary main_cst_2 (constant S_ .f32 0x3F800000#32),
    StableHlo.unary main_cst_2 main_v27 (broadcastInDim S8x4x4x128x64x64 ![] bcast_S_S8x4x4x128x64x64 : (⟨S_, .f32⟩ : BufTy).Contents (Elt F) → (⟨S8x4x4x128x64x64, .f32⟩ : BufTy).Contents (Elt F)),
    StableHlo.binary main_v27 main_v26 main_v28 (addf : (⟨S8x4x4x128x64x64, .f32⟩ : BufTy).Contents (Elt F) → (⟨S8x4x4x128x64x64, .f32⟩ : BufTy).Contents (Elt F) → (⟨S8x4x4x128x64x64, .f32⟩ : BufTy).Contents (Elt F)),
    StableHlo.binary main_v25 main_v28 main_v29 (mulf : (⟨S8x4x4x128x64x64, .f32⟩ : BufTy).Contents (Elt F) → (⟨S8x4x4x128x64x64, .f32⟩ : BufTy).Contents (Elt F) → (⟨S8x4x4x128x64x64, .f32⟩ : BufTy).Contents (Elt F)),
    StableHlo.unary main_v29 main_v30 ((transpose S8x128x4x64x4x64 [0, 3, 1, 4, 2, 5] · transposes_S8x4x4x128x64x64_S8x128x4x64x4x64_0_3_1_4_2_5) : (⟨S8x4x4x128x64x64, .f32⟩ : BufTy).Contents (Elt F) → (⟨S8x128x4x64x4x64, .f32⟩ : BufTy).Contents (Elt F)),
    StableHlo.reshape main_v30 main_v31 rfl shapeCasts_S8x128x4x64x4x64_S8x128x256x256 ]

-- the two sides are compared step by step, sixty-seven steps deep
set_option maxRecDepth 4096 in
set_option maxHeartbeats 1000000 in
/-- @main is that straight line: sequencing in this program monad grafts the continuation onto each step by
    computation, so with the functions' definitions unfolded at their calls both sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    reshape_bufs_sub .., unary_bufs_sub .., reshape_bufs_sub .., unary_bufs_sub .., reshape_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., reshape_bufs_sub .., unary_bufs_sub .., unary_bufs_sub .., unary_bufs_sub .., binary_bufs_sub ..,
    unary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., binary_bufs_sub .., unary_bufs_sub ..,
    reshape_bufs_sub ..⟩

attribute [local irreducible] Host.reduceAdd transpose shapeCast broadcastInDim in
set_option maxRecDepth 8192 in
set_option maxHeartbeats 1000000 in
/-- The fold at the result buffer is RefTerm.out of the arguments' contents: each operation's result at its own
    buffer is its function of its operands' contents and at any other buffer what was there, and the composed term
    is the chain of stages by unfolding their definitions. The sum over a group, the transposes, the reshapes and
    the broadcasts stay folded meanwhile: the equation never looks inside them. -/
theorem out_eq (V : Valuation τ sig (Elt F)) :
    after ops V (main_v31 : DevRef τ sig)
      = RefTerm.out (V (main_arg0 : DevRef τ sig)) (V (main_arg1 : DevRef τ sig)) (V (main_arg2 : DevRef τ sig))
          (V (main_arg3 : DevRef τ sig)) := by
  after_results_simp
  rfl

/-- No operation writes an argument's buffer. -/
theorem arg0_eq (V : Valuation τ sig (Elt F)) :
    after ops V (main_arg0 : DevRef τ sig) = V (main_arg0 : DevRef τ sig) := by
  after_results_simp

@[inherit_doc arg0_eq]
theorem arg1_eq (V : Valuation τ sig (Elt F)) :
    after ops V (main_arg1 : DevRef τ sig) = V (main_arg1 : DevRef τ sig) := by
  after_results_simp

@[inherit_doc arg0_eq]
theorem arg2_eq (V : Valuation τ sig (Elt F)) :
    after ops V (main_arg2 : DevRef τ sig) = V (main_arg2 : DevRef τ sig) := by
  after_results_simp

@[inherit_doc arg0_eq]
theorem arg3_eq (V : Valuation τ sig (Elt F)) :
    after ops V (main_arg3 : DevRef τ sig) = V (main_arg3 : DevRef τ sig) := by
  after_results_simp

/-- On every device, for any float values, from any memory with zero counters: every weakly fair execution of
    @main terminates with the result buffer at RefTerm.out of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = RefTerm.out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v31).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.RefIdx.lean ====
/-
  Indices of rank 7 by coordinates, and the reference's layout operations read at an index given by coordinates.

  The arrays `[8, 128, 256, 256]` (batch, channel, row, column) are viewed by patches: the rows and the columns are cut
  into four patches of 64, `[8, 128, 4, 64, 4, 64]`, the patch coordinates are moved in front of the channel,
  `[8, 4, 4, 128, 64, 64]`, and the channels are cut into 32 groups of 4, `[8, 4, 4, 32, 4, 64, 64]`. Each lemma reads one
  of these re-arrangements (or its inverse, or a broadcast along the new axes) at an index written by its coordinates:
  a reshape keeps the row-major position, so row `64 i + hh` is row `hh` of patch `i` and channel `4 g + cc` is
  channel `cc` of group `g`; a transpose permutes the coordinates.
-/
import Idealize.ShloMosaic.Lib.ValueLayout
import proofs.«135047_j75144747811287_2_alg».proof.Proof.Spec

namespace Idealize.ShloMosaic

/-- Rank 7: the row-major position as one sum of products. -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
          + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun k => match k with
    | ⟨0, _⟩ => a | ⟨1, _⟩ => b | ⟨2, _⟩ => c | ⟨3, _⟩ => d | ⟨4, _⟩ => e | ⟨5, _⟩ => f | ⟨6, _⟩ => g
/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

end ValueIdx

end Idealize.ShloMosaic

namespace Cert.RefIdx

open Idealize.ShloMosaic Idealize.ShloMosaic.ValueIdx Cert.Spec

variable {α : Type}

/-! ## A channel within its group, a row within its patch -/

/-- The place of a channel within its group of 4. -/
def lane (ch : Fin 128) : Fin 4 := ⟨ch.val % 4, Nat.mod_lt _ (by decide)⟩
/-- The place of a row (or column) within its patch of 64. -/
def off (h : Fin 256) : Fin 64 := ⟨h.val % 64, Nat.mod_lt _ (by decide)⟩

/-- A channel is channel `lane` of its group. -/
theorem chan_grp_lane (ch : Fin 128) : chan (grp ch) (lane ch) = ch :=
  Fin.ext (by show 4 * (ch.val / 4) + ch.val % 4 = ch.val; omega)
/-- A row is row `off` of its patch. -/
theorem pos_patch_off (h : Fin 256) : pos (patch h) (off h) = h :=
  Fin.ext (by show 64 * (h.val / 64) + h.val % 64 = h.val; omega)

/-! ## The patch view and back -/

/-- `[8, 128, 256, 256]` cut into patches, `[8, 128, 4, 64, 4, 64]`: row `hh` of row patch `i` is row `64 i + hh`. -/
theorem shapeCast_cut_apply (x : (⟨4, ![8, 128, 256, 256]⟩ : Shape).Idx → α)
    (h : (⟨4, ![8, 128, 256, 256]⟩ : Shape).ShapeCasts ⟨6, ![8, 128, 4, 64, 4, 64]⟩)
    (b : Fin 8) (ch : Fin 128) (i : Fin 4) (hh : Fin 64) (j : Fin 4) (ww : Fin 64) :
    shapeCast ⟨6, ![8, 128, 4, 64, 4, 64]⟩ x h (ix6 b ch i hh j ww) = x (ix4 b ch (pos i hh) (pos j ww)) :=
  shapeCast_apply x h _ _ (by
    rw [Shape.rowMajor_val_four, Shape.rowMajor_val_six]
    show ((b.val * 128 + ch.val) * 256 + (64 * i.val + hh.val)) * 256 + (64 * j.val + ww.val)
      = ((((b.val * 128 + ch.val) * 4 + i.val) * 64 + hh.val) * 4 + j.val) * 64 + ww.val
    omega)

/-- The patches joined again, `[8, 128, 4, 64, 4, 64]` to `[8, 128, 256, 256]`: row `h` is row `off h` of patch `patch h`. -/
theorem shapeCast_join_apply (x : (⟨6, ![8, 128, 4, 64, 4, 64]⟩ : Shape).Idx → α)
    (h : (⟨6, ![8, 128, 4, 64, 4, 64]⟩ : Shape).ShapeCasts ⟨4, ![8, 128, 256, 256]⟩)
    (b : Fin 8) (ch : Fin 128) (r c : Fin 256) :
    shapeCast ⟨4, ![8, 128, 256, 256]⟩ x h (ix4 b ch r c) = x (ix6 b ch (patch r) (off r) (patch c) (off c)) :=
  shapeCast_apply x h _ _ (by
    rw [Shape.rowMajor_val_four, Shape.rowMajor_val_six]
    show ((((b.val * 128 + ch.val) * 4 + r.val / 64) * 64 + r.val % 64) * 4 + c.val / 64) * 64 + c.val % 64
      = ((b.val * 128 + ch.val) * 256 + r.val) * 256 + c.val
    omega)

/-- The patch coordinates moved in front of the channel (permutation `[0, 2, 4, 1, 3, 5]`). -/
theorem transpose_front_apply (x : (⟨6, ![8, 128, 4, 64, 4, 64]⟩ : Shape).Idx → α)
    (h : (⟨6, ![8, 128, 4, 64, 4, 64]⟩ : Shape).Transposes [0, 2, 4, 1, 3, 5] ⟨6, ![8, 4, 4, 128, 64, 64]⟩)
    (b : Fin 8) (i j : Fin 4) (ch : Fin 128) (hh ww : Fin 64) :
    transpose ⟨6, ![8, 4, 4, 128, 64, 64]⟩ [0, 2, 4, 1, 3, 5] x h (ix6 b i j ch hh ww) = x (ix6 b ch i hh j ww) :=
  transpose_apply _ x h _ _ fun c => match c with
    | ⟨0, _⟩ => rfl | ⟨1, _⟩ => rfl | ⟨2, _⟩ => rfl | ⟨3, _⟩ => rfl | ⟨4, _⟩ => rfl | ⟨5, _⟩ => rfl

/-- The patch coordinates moved back behind the channel (permutation `[0, 3, 1, 4, 2, 5]`). -/
theorem transpose_back_apply (x : (⟨6, ![8, 4, 4, 128, 64, 64]⟩ : Shape).Idx → α)
    (h : (⟨6, ![8, 4, 4, 128, 64, 64]⟩ : Shape).Transposes [0, 3, 1, 4, 2, 5] ⟨6, ![8, 128, 4, 64, 4, 64]⟩)
    (b : Fin 8) (ch : Fin 128) (i : Fin 4) (hh : Fin 64) (j : Fin 4) (ww : Fin 64) :
    transpose ⟨6, ![8, 128, 4, 64, 4, 64]⟩ [0, 3, 1, 4, 2, 5] x h (ix6 b ch i hh j ww) = x (ix6 b i j ch hh ww) :=
  transpose_apply _ x h _ _ fun c => match c with
    | ⟨0, _⟩ => rfl | ⟨1, _⟩ => rfl | ⟨2, _⟩ => rfl | ⟨3, _⟩ => rfl | ⟨4, _⟩ => rfl | ⟨5, _⟩ => rfl

/-! ## The grouped view and back -/

/-- The channels cut into groups, `[8, 4, 4, 128, 64, 64]` to `[8, 4, 4, 32, 4, 64, 64]`: channel `cc` of group `g` is
    channel `4 g + cc`. -/
theorem shapeCast_group_apply (x : (⟨6, ![8, 4, 4, 128, 64, 64]⟩ : Shape).Idx → α)
    (h : (⟨6, ![8, 4, 4, 128, 64, 64]⟩ : Shape).ShapeCasts ⟨7, ![8, 4, 4, 32, 4, 64, 64]⟩)
    (b : Fin 8) (i j : Fin 4) (g : Fin 32) (cc : Fin 4) (hh ww : Fin 64) :
    shapeCast ⟨7, ![8, 4, 4, 32, 4, 64, 64]⟩ x h (ix7 b i j g cc hh ww) = x (ix6 b i j (chan g cc) hh ww) :=
  shapeCast_apply x h _ _ (by
    rw [Shape.rowMajor_val_six, Shape.rowMajor_val_seven]
    show ((((b.val * 4 + i.val) * 4 + j.val) * 128 + (4 * g.val + cc.val)) * 64 + hh.val) * 64 + ww.val
      = (((((b.val * 4 + i.val) * 4 + j.val) * 32 + g.val) * 4 + cc.val) * 64 + hh.val) * 64 + ww.val
    omega)

/-- The groups joined again, `[8, 4, 4, 32, 4, 64, 64]` to `[8, 4, 4, 128, 64, 64]`: channel `ch` is channel `lane ch`
    of group `grp ch`. -/
theorem shapeCast_ungroup_apply (x : (⟨7, ![8, 4, 4, 32, 4, 64, 64]⟩ : Shape).Idx → α)
    (h : (⟨7, ![8, 4, 4, 32, 4, 64, 64]⟩ : Shape).ShapeCasts ⟨6, ![8, 4, 4, 128, 64, 64]⟩)
    (b : Fin 8) (i j : Fin 4) (ch : Fin 128) (hh ww : Fin 64) :
    shapeCast ⟨6, ![8, 4, 4, 128, 64, 64]⟩ x h (ix6 b i j ch hh ww) = x (ix7 b i j (grp ch) (lane ch) hh ww) :=
  shapeCast_apply x h _ _ (by
    rw [Shape.rowMajor_val_six, Shape.rowMajor_val_seven]
    show (((((b.val * 4 + i.val) * 4 + j.val) * 32 + ch.val / 4) * 4 + ch.val % 4) * 64 + hh.val) * 64 + ww.val
      = ((((b.val * 4 + i.val) * 4 + j.val) * 128 + ch.val) * 64 + hh.val) * 64 + ww.val
    omega)

/-! ## The broadcasts -/

/-- A scalar broadcast to any shape reads the scalar everywhere. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A per-cell value `[8, 4, 4, 32]` given three unit axes, `[8, 4, 4, 32, 1, 1, 1]`. -/
theorem broadcastInDim_cell_apply (x : (⟨4, ![8, 4, 4, 32]⟩ : Shape).Idx → α)
    (h : (⟨4, ![8, 4, 4, 32]⟩ : Shape).BroadcastsInDim ⟨7, ![8, 4, 4, 32, 1, 1, 1]⟩ ![0, 1, 2, 3])
    (b : Fin 8) (i j : Fin 4) (g : Fin 32) (u v w : Fin 1) :
    broadcastInDim ⟨7, ![8, 4, 4, 32, 1, 1, 1]⟩ ![0, 1, 2, 3] h x (ix7 b i j g u v w) = x (ix4 b i j g) :=
  broadcastInDim_apply _ h x _ _ fun a => match a with
    | ⟨0, _⟩ => rfl | ⟨1, _⟩ => rfl | ⟨2, _⟩ => rfl | ⟨3, _⟩ => rfl

/-- A per-cell value with three unit axes, `[8, 4, 4, 32, 1, 1, 1]`, spread over the cell, `[8, 4, 4, 32, 4, 64, 64]`. -/
theorem broadcastInDim_spread_apply (x : (⟨7, ![8, 4, 4, 32, 1, 1, 1]⟩ : Shape).Idx → α)
    (h : (⟨7, ![8, 4, 4, 32, 1, 1, 1]⟩ : Shape).BroadcastsInDim ⟨7, ![8, 4, 4, 32, 4, 64, 64]⟩ ![0, 1, 2, 3, 4, 5, 6])
    (b : Fin 8) (i j : Fin 4) (g : Fin 32) (cc : Fin 4) (hh ww : Fin 64) :
    broadcastInDim ⟨7, ![8, 4, 4, 32, 4, 64, 64]⟩ ![0, 1, 2, 3, 4, 5, 6] h x (ix7 b i j g cc hh ww)
      = x (ix7 b i j g (0 : Fin 1) (0 : Fin 1) (0 : Fin 1)) :=
  broadcastInDim_apply _ h x _ _ fun a => match a with
    | ⟨0, _⟩ => rfl | ⟨1, _⟩ => rfl | ⟨2, _⟩ => rfl | ⟨3, _⟩ => rfl | ⟨4, _⟩ => rfl | ⟨5, _⟩ => rfl | ⟨6, _⟩ => rfl

/-- A per-channel value `[128]` given two unit axes, `[128, 1, 1]`. -/
theorem broadcastInDim_chan_apply (x : (⟨1, ![128]⟩ : Shape).Idx → α)
    (h : (⟨1, ![128]⟩ : Shape).BroadcastsInDim ⟨3, ![128, 1, 1]⟩ ![0]) (ch : Fin 128) (u v : Fin 1) :
    broadcastInDim ⟨3, ![128, 1, 1]⟩ ![0] h x (ix3 ch u v) = x (ix1 ch) :=
  broadcastInDim_apply _ h x _ _ fun a => match a with | ⟨0, _⟩ => rfl

/-- `[128, 1, 1]` placed on the last three of six axes, `[1, 1, 1, 128, 1, 1]`. -/
theorem broadcastInDim_place_apply (x : (⟨3, ![128, 1, 1]⟩ : Shape).Idx → α)
    (h : (⟨3, ![128, 1, 1]⟩ : Shape).BroadcastsInDim ⟨6, ![1, 1, 1, 128, 1, 1]⟩ ![3, 4, 5])
    (u0 u1 u2 : Fin 1) (ch : Fin 128) (u4 u5 : Fin 1) :
    broadcastInDim ⟨6, ![1, 1, 1, 128, 1, 1]⟩ ![3, 4, 5] h x (ix6 u0 u1 u2 ch u4 u5) = x (ix3 ch (0 : Fin 1) (0 : Fin 1)) :=
  broadcastInDim_apply _ h x _ _ fun a => match a with | ⟨0, _⟩ => rfl | ⟨1, _⟩ => rfl | ⟨2, _⟩ => rfl

/-- `[1, 1, 1, 128, 1, 1]` spread over the patch view, `[8, 4, 4, 128, 64, 64]`. -/
theorem broadcastInDim_fill_apply (x : (⟨6, ![1, 1, 1, 128, 1, 1]⟩ : Shape).Idx → α)
    (h : (⟨6, ![1, 1, 1, 128, 1, 1]⟩ : Shape).BroadcastsInDim ⟨6, ![8, 4, 4, 128, 64, 64]⟩ ![0, 1, 2, 3, 4, 5])
    (b : Fin 8) (i j : Fin 4) (ch : Fin 128) (hh ww : Fin 64) :
    broadcastInDim ⟨6, ![8, 4, 4, 128, 64, 64]⟩ ![0, 1, 2, 3, 4, 5] h x (ix6 b i j ch hh ww)
      = x (ix6 (0 : Fin 1) (0 : Fin 1) (0 : Fin 1) ch (0 : Fin 1) (0 : Fin 1)) :=
  broadcastInDim_apply _ h x _ _ fun a => match a with
    | ⟨0, _⟩ => rfl | ⟨1, _⟩ => rfl | ⟨2, _⟩ => rfl | ⟨3, _⟩ => rfl | ⟨4, _⟩ => rfl | ⟨5, _⟩ => rfl

end Cert.RefIdx
-- ==== Proof.RefStages.lean ====
/-
  The reference's re-arranging stages read at an index given by coordinates: the patch view and the way back, the
  grouped view, and the broadcasts of a per-cell, a per-channel and a scalar value. These move entries and compute
  nothing, so they hold whatever the entries are.
-/
import proofs.«135047_j75144747811287_2_alg».proof.Proof.RefTerm
import proofs.«135047_j75144747811287_2_alg».proof.Proof.RefIdx

noncomputable section

namespace Cert.ReferenceIdeal.RefStages

open Idealize.ShloMosaic Idealize.ShloMosaic.ValueIdx Cert.ReferenceIdeal Cert.ReferenceIdeal.RefTerm Cert.Spec Cert.RefIdx

variable {F : FTy → Type} [FloatOps F] [Facts]

/-- The patch view at `(b, i, j, ch, hh, ww)` is the array at `(b, ch, 64 i + hh, 64 j + ww)`. -/
theorem patches_apply (x : FVec F S8x128x256x256 .f32) (b : Fin 8) (i j : Fin 4) (ch : Fin 128) (hh ww : Fin 64) :
    patches x (ix6 b i j ch hh ww) = x (ix4 b ch (pos i hh) (pos j ww)) := by
  unfold patches
  exact (transpose_front_apply _ _ b i j ch hh ww).trans (shapeCast_cut_apply x _ b ch i hh j ww)

/-- The grouped view at `(b, i, j, g, cc, hh, ww)` is the patch view at channel `4 g + cc`. -/
theorem grouped_apply (p : FVec F S8x4x4x128x64x64 .f32) (b : Fin 8) (i j : Fin 4) (g : Fin 32) (cc : Fin 4)
    (hh ww : Fin 64) : grouped p (ix7 b i j g cc hh ww) = p (ix6 b i j (chan g cc) hh ww) := by
  unfold grouped
  exact shapeCast_group_apply p _ b i j g cc hh ww

/-- The grouped patch view of an array, entry by entry. -/
theorem grouped_patches_apply (x : FVec F S8x128x256x256 .f32) (b : Fin 8) (i j : Fin 4) (g : Fin 32) (cc : Fin 4)
    (hh ww : Fin 64) :
    grouped (patches x) (ix7 b i j g cc hh ww) = x (ix4 b (chan g cc) (pos i hh) (pos j ww)) :=
  (grouped_apply (patches x) b i j g cc hh ww).trans (patches_apply x b i j (chan g cc) hh ww)

/-- A per-cell value spread over its cell reads that value. -/
theorem spread_apply (v : FVec F S8x4x4x32x1x1x1 .f32) (b : Fin 8) (i j : Fin 4) (g : Fin 32) (cc : Fin 4)
    (hh ww : Fin 64) : spread v (ix7 b i j g cc hh ww) = v (ix7 b i j g (0 : Fin 1) (0 : Fin 1) (0 : Fin 1)) := by
  unfold spread
  exact broadcastInDim_spread_apply v _ b i j g cc hh ww

/-- A scalar repeated per cell reads the scalar. -/
theorem perGroup_apply (c : FVec F S_ .f32) (k : S8x4x4x32x1x1x1.Idx) : perGroup c k = c ix0 := by
  unfold perGroup
  exact broadcastInDim_scalar_apply _ _ c k

/-- A per-channel value repeated over the patch view reads the channel's value. -/
theorem perChannel_apply (w : FVec F S128 .f32) (b : Fin 8) (i j : Fin 4) (ch : Fin 128) (hh ww : Fin 64) :
    perChannel w (ix6 b i j ch hh ww) = w (ix1 ch) := by
  unfold perChannel
  exact (broadcastInDim_fill_apply _ _ b i j ch hh ww).trans
    ((broadcastInDim_place_apply _ _ 0 0 0 ch 0 0).trans (broadcastInDim_chan_apply w _ ch 0 0))

/-- The constant one of the patch view reads the word `1.0`. -/
theorem ones_apply (k : S8x4x4x128x64x64.Idx) : ones (F := F) k = FloatOps.ofBits .f32 0x3F800000#32 := by
  unfold ones
  exact broadcastInDim_scalar_apply _ _ _ k

/-- The way back at `(b, ch, r, c)` is the patch view at the patches of `r` and `c` and the places within them. -/
theorem unpatch_apply (p : FVec F S8x4x4x128x64x64 .f32) (b : Fin 8) (ch : Fin 128) (r c : Fin 256) :
    unpatch p (ix4 b ch r c) = p (ix6 b (patch r) (patch c) ch (off r) (off c)) := by
  unfold unpatch
  exact (shapeCast_join_apply _ _ b ch r c).trans (transpose_back_apply p _ b ch (patch r) (off r) (patch c) (off c))

end Cert.ReferenceIdeal.RefStages

end
-- ==== Proof.RefConsts.lean ====
/-
  The float words the reference spells, as the extended reals they denote, and the laws that join the reference's
  spelling of the mean, the variance and the gate to the specification's.

  The reference divides a patch sum by the word `16384.0`; the specification multiplies it by the word `2⁻¹⁴`: dividing
  by a nonzero real is multiplying by its reciprocal, at the infinities too. The variance divides by `16384 − 0`, the
  `0` being the integer zero converted to a float, and keeps the quotient only where that count is positive, which it
  is. The gate's `1 / (1 + exp (−t))` is the logistic function by definition, once the word `1.0` is read as `1`.
-/
import Idealize.ShloMosaic.PureOps.Ideal
import Idealize.ShloMosaic.PureOps.Ideal.Laws
import Idealize.ShloMosaic.Lib.ValueIdx
import proofs.«135047_j75144747811287_2_alg».proof.Proof.Spec

noncomputable section

namespace Cert.RefConsts

open Idealize.ShloMosaic

/-- The word `16384.0` denotes the real `16384`. -/
theorem ofBits_N : Ideal.ofBits .f32 0x46800000#32 = ((16384 : ℝ) : EReal) := by
  simp [Ideal.ofBits, Ideal.ieee, -EReal.coe_mul]; norm_num

/-- The word `2⁻¹⁴` denotes the real `1 / 16384`. -/
theorem ofBits_invN : Ideal.ofBits .f32 0x38800000#32 = ((1 / 16384 : ℝ) : EReal) := by
  simp [Ideal.ofBits, Ideal.ieee, -EReal.coe_mul]; norm_num

/-- The word `1.0` denotes `1`. -/
theorem ofBits_one : Ideal.ofBits .f32 0x3F800000#32 = 1 := by
  simp [Ideal.ofBits, Ideal.ieee, -EReal.coe_mul]; norm_num

/-- The specification's `2⁻¹⁴` is the real `1 / 16384`. -/
theorem invN_eq : Cert.Spec.invN = ((1 / 16384 : ℝ) : EReal) := ofBits_invN

/-- Dividing by the word `16384.0` is multiplying by the specification's `2⁻¹⁴`, for every extended real. -/
theorem div_N (s : EReal) : Ideal.div s (Ideal.ofBits .f32 0x46800000#32) = s * Cert.Spec.invN := by
  rw [ofBits_N, invN_eq]
  exact Ideal.div_coe (by norm_num) s

/-- The integer zero converted to a float is `0`. -/
theorem sitofp_zero : FloatOps.sitofp (F := Ideal) .f32 (0#32 : BitVec 32) = (0 : EReal) := by
  show (((0#32 : BitVec 32).toInt : ℝ) : EReal) = 0
  simp

/-- The variance's count, `16384 − 0`, is `16384`. -/
theorem count_eq :
    Ideal.ofBits .f32 0x46800000#32 - FloatOps.sitofp (F := Ideal) .f32 (0#32 : BitVec 32) = ((16384 : ℝ) : EReal) := by
  rw [sitofp_zero, ofBits_N, sub_zero]

/-- The count is positive: the comparison `count > 0` is the bit `1`. -/
theorem cmp_count :
    Ideal.cmp .ogt (Ideal.ofBits .f32 0x46800000#32 - FloatOps.sitofp (F := Ideal) .f32 (0#32 : BitVec 32))
      (Ideal.ofBits .f32 0x00000000#32) = 1#1 := by
  rw [count_eq, Ideal.ofBits_zero_f32]
  have h : (0 : EReal) < ((16384 : ℝ) : EReal) := by exact_mod_cast (by norm_num : (0 : ℝ) < 16384)
  simp [Ideal.cmp, h]

/-- Dividing by the count `16384 − 0` is multiplying by the specification's `2⁻¹⁴`, for every extended real. -/
theorem div_count (s : EReal) :
    Ideal.div s (Ideal.ofBits .f32 0x46800000#32 - FloatOps.sitofp (F := Ideal) .f32 (0#32 : BitVec 32))
      = s * Cert.Spec.invN := by
  rw [count_eq, invN_eq]
  exact Ideal.div_coe (by norm_num) s

/-- The gate's quotient, with the word `1.0` in both places, is the logistic function. -/
theorem div_one_add_exp (t : EReal) :
    Ideal.div (Ideal.ofBits .f32 0x3F800000#32) (Ideal.ofBits .f32 0x3F800000#32 + Ideal.exp (-t)) = Ideal.logistic t := by
  rw [ofBits_one]; rfl

end Cert.RefConsts

end
-- ==== Proof.RefReduce.lean ====
/-
  The reference's sum over a cell, read on the extended reals as the specification's triple sum.

  The grouped view `[8, 4, 4, 32, 4, 64, 64]` is summed over its last three axes. At a cell `(b, i, j, g)` the indices
  that are summed are exactly the `(b, i, j, g, cc, hh, ww)`: the map `(cc, hh, ww) ↦ (b, i, j, g, cc, hh, ww)` is a
  bijection onto them, so the sum over them is the sum over `cc`, then `hh`, then `ww`. Addition of extended reals is
  commutative and associative, so nothing is asked of the summands.
-/
import Idealize.ShloMosaic.PureOps.Ideal.Laws
import proofs.«135047_j75144747811287_2_alg».proof.Proof.RefIdx

noncomputable section

open scoped BigOperators

namespace Cert.RefReduce

open Idealize.ShloMosaic Idealize.ShloMosaic.ValueIdx

/-- The first four coordinates of an index of the grouped view are its cell's. -/
theorem drop_val (h' : (⟨7, ![8, 4, 4, 32, 4, 64, 64]⟩ : Shape).ReducesTo [4, 5, 6] ⟨4, ![8, 4, 4, 32]⟩)
    (k : (⟨7, ![8, 4, 4, 32, 4, 64, 64]⟩ : Shape).Idx) :
    (h'.drop k 0).val = (k 0).val ∧ (h'.drop k 1).val = (k 1).val ∧ (h'.drop k 2).val = (k 2).val
      ∧ (h'.drop k 3).val = (k 3).val :=
  ⟨rfl, rfl, rfl, rfl⟩

/-- The cell of `(b, i, j, g, cc, hh, ww)` is `(b, i, j, g)`. -/
theorem drop_ix7 (h' : (⟨7, ![8, 4, 4, 32, 4, 64, 64]⟩ : Shape).ReducesTo [4, 5, 6] ⟨4, ![8, 4, 4, 32]⟩)
    (b : Fin 8) (i j : Fin 4) (g : Fin 32) (cc : Fin 4) (hh ww : Fin 64) :
    h'.drop (ix7 b i j g cc hh ww) = ix4 b i j g := by
  funext a
  refine Fin.ext ?_
  obtain ⟨h0, h1, h2, h3⟩ := drop_val h' (ix7 b i j g cc hh ww)
  match a with
  | ⟨0, _⟩ => exact h0
  | ⟨1, _⟩ => exact h1
  | ⟨2, _⟩ => exact h2
  | ⟨3, _⟩ => exact h3

/-- An index whose cell is `(b, i, j, g)` is `(b, i, j, g)` followed by its own last three coordinates. -/
theorem eq_ix7_of_drop (h' : (⟨7, ![8, 4, 4, 32, 4, 64, 64]⟩ : Shape).ReducesTo [4, 5, 6] ⟨4, ![8, 4, 4, 32]⟩)
    (k : (⟨7, ![8, 4, 4, 32, 4, 64, 64]⟩ : Shape).Idx) (b : Fin 8) (i j : Fin 4) (g : Fin 32)
    (hk : h'.drop k = ix4 b i j g) : ix7 b i j g (k 4) (k 5) (k 6) = k := by
  obtain ⟨h0, h1, h2, h3⟩ := drop_val h' k
  have e0 : (k 0).val = b.val := h0.symm.trans (congrArg (fun q : (⟨4, ![8, 4, 4, 32]⟩ : Shape).Idx => (q 0).val) hk)
  have e1 : (k 1).val = i.val := h1.symm.trans (congrArg (fun q : (⟨4, ![8, 4, 4, 32]⟩ : Shape).Idx => (q 1).val) hk)
  have e2 : (k 2).val = j.val := h2.symm.trans (congrArg (fun q : (⟨4, ![8, 4, 4, 32]⟩ : Shape).Idx => (q 2).val) hk)
  have e3 : (k 3).val = g.val := h3.symm.trans (congrArg (fun q : (⟨4, ![8, 4, 4, 32]⟩ : Shape).Idx => (q 3).val) hk)
  funext a
  refine Fin.ext ?_
  match a with
  | ⟨0, _⟩ => exact e0.symm
  | ⟨1, _⟩ => exact e1.symm
  | ⟨2, _⟩ => exact e2.symm
  | ⟨3, _⟩ => exact e3.symm
  | ⟨4, _⟩ => rfl
  | ⟨5, _⟩ => rfl
  | ⟨6, _⟩ => rfl

/-- THE SUM OVER A CELL: the initial value plus the sum over the channels of the group, the rows and the columns of
    the patch. -/
theorem hostReduceAdd_cell (h' : (⟨7, ![8, 4, 4, 32, 4, 64, 64]⟩ : Shape).ReducesTo [4, 5, 6] ⟨4, ![8, 4, 4, 32]⟩)
    (x : (⟨7, ![8, 4, 4, 32, 4, 64, 64]⟩ : Shape).Idx → EReal) (init : EReal)
    (b : Fin 8) (i j : Fin 4) (g : Fin 32) :
    Ideal.hostReduceAdd h' x init (ix4 b i j g)
      = init + ∑ cc : Fin 4, ∑ hh : Fin 64, ∑ ww : Fin 64, x (ix7 b i j g cc hh ww) := by
  unfold Ideal.hostReduceAdd
  congr 1
  have e : ∑ cc : Fin 4, ∑ hh : Fin 64, ∑ ww : Fin 64, x (ix7 b i j g cc hh ww)
      = ∑ p : Fin 4 × Fin 64 × Fin 64, x (ix7 b i j g p.1 p.2.1 p.2.2) := by
    simp only [Fintype.sum_prod_type]
  rw [e]
  refine Finset.sum_nbij' (fun k => ((k 4, k 5, k 6) : Fin 4 × Fin 64 × Fin 64))
    (fun p => ix7 b i j g p.1 p.2.1 p.2.2) ?_ ?_ ?_ ?_ ?_
  · intro k _; exact Finset.mem_univ _
  · intro p _; exact Finset.mem_filter.2 ⟨Finset.mem_univ _, drop_ix7 h' b i j g p.1 p.2.1 p.2.2⟩
  · intro k hk; exact eq_ix7_of_drop h' k b i j g (Finset.mem_filter.1 hk).2
  · intro p _; rfl
  · intro k hk; exact congrArg x (eq_ix7_of_drop h' k b i j g (Finset.mem_filter.1 hk).2).symm

end Cert.RefReduce

end
-- ==== Proof.RefMoments.lean ====
/-
  The reference's arithmetic stages read on the extended reals at an index given by coordinates: the sum over a cell,
  the mean, the deviation, the variance, the normalized array, the scale and shift, and the gate.

  A cell is a batch entry, a row patch, a column patch and a group; it has `4 · 64 · 64 = 16384` entries. The mean of a
  cell is its sum times `2⁻¹⁴`; the variance is the sum of the squared deviations times `2⁻¹⁴` (its divisor `16384 − 0`
  is positive, so the guarded quotient is the quotient); the gate's `a · (1 / (1 + exp (−a)))` is `a · logistic a`.
-/
import proofs.«135047_j75144747811287_2_alg».proof.Proof.RefStages
import proofs.«135047_j75144747811287_2_alg».proof.Proof.RefConsts
import proofs.«135047_j75144747811287_2_alg».proof.Proof.RefReduce

noncomputable section

open scoped BigOperators

namespace Cert.ReferenceIdeal.RefMoments

open Idealize.ShloMosaic Idealize.ShloMosaic.ValueIdx Cert.ReferenceIdeal Cert.ReferenceIdeal.RefTerm
  Cert.ReferenceIdeal.RefStages Cert.RefIdx
open Cert.ReferenceIdeal.Facts₀
open Cert.Spec (invN eps grp)

variable [Facts]

/-- The sum over a cell, from the initial value zero, is the sum over the cell's entries. -/
theorem groupSum_apply (a : FVec Ideal S8x4x4x32x4x64x64 .f32) (n : Fin 8) (i j : Fin 4) (g : Fin 32) (u v t : Fin 1) :
    groupSum a (ix7 n i j g u v t) = ∑ cc : Fin 4, ∑ hh : Fin 64, ∑ ww : Fin 64, a (ix7 n i j g cc hh ww) := by
  unfold groupSum
  refine (broadcastInDim_cell_apply _ _ n i j g u v t).trans ?_
  show Ideal.hostReduceAdd reducesTo_S8x4x4x32x4x64x64_S8x4x4x32_d4_5_6 a (Ideal.ofBits .f32 0x00000000#32) (ix4 n i j g) = _
  rw [Cert.RefReduce.hostReduceAdd_cell, Ideal.ofBits_zero_f32, zero_add]

/-- The mean of a cell is its sum times `2⁻¹⁴`. -/
theorem mean_apply (a : FVec Ideal S8x4x4x32x4x64x64 .f32) (n : Fin 8) (i j : Fin 4) (g : Fin 32) (u v t : Fin 1) :
    RefTerm.mean a (ix7 n i j g u v t) = (∑ cc : Fin 4, ∑ hh : Fin 64, ∑ ww : Fin 64, a (ix7 n i j g cc hh ww)) * invN := by
  unfold RefTerm.mean
  show Ideal.div (groupSum a (ix7 n i j g u v t)) (perGroup (constant (F := Ideal) S_ .f32 0x46800000#32) (ix7 n i j g u v t)) = _
  rw [groupSum_apply, perGroup_apply]
  exact Cert.RefConsts.div_N _

/-- The deviation of an entry from the mean of its cell. -/
theorem deviation_apply (a : FVec Ideal S8x4x4x32x4x64x64 .f32) (n : Fin 8) (i j : Fin 4) (g : Fin 32) (cc : Fin 4)
    (hh ww : Fin 64) :
    deviation a (ix7 n i j g cc hh ww)
      = a (ix7 n i j g cc hh ww) - (∑ cc : Fin 4, ∑ hh : Fin 64, ∑ ww : Fin 64, a (ix7 n i j g cc hh ww)) * invN := by
  unfold deviation
  show a (ix7 n i j g cc hh ww) - spread (RefTerm.mean a) (ix7 n i j g cc hh ww) = _
  rw [spread_apply, mean_apply]

/-- The variance of a cell is the sum of its squared deviations times `2⁻¹⁴`: the divisor `16384 − 0` is positive. -/
theorem variance_apply (a : FVec Ideal S8x4x4x32x4x64x64 .f32) (n : Fin 8) (i j : Fin 4) (g : Fin 32) (u v t : Fin 1) :
    variance a (ix7 n i j g u v t)
      = (∑ cc : Fin 4, ∑ hh : Fin 64, ∑ ww : Fin 64,
          deviation a (ix7 n i j g cc hh ww) * deviation a (ix7 n i j g cc hh ww)) * invN := by
  unfold variance
  rw [select_apply, broadcastInDim_scalar_apply]
  show Scalar.select
      (Ideal.cmp .ogt (Ideal.ofBits .f32 0x46800000#32 - FloatOps.sitofp (F := Ideal) .f32 (0#32 : BitVec 32))
        (Ideal.ofBits .f32 0x00000000#32))
      (Ideal.div (groupSum (mulf (deviation a) (deviation a)) (ix7 n i j g u v t))
        (perGroup (divisor (F := Ideal)) (ix7 n i j g u v t)))
      _ = _
  rw [Cert.RefConsts.cmp_count, select_one, groupSum_apply, perGroup_apply]
  exact Cert.RefConsts.div_count _

/-- The normalized array at channel `ch` is the deviation times the reciprocal square root of the variance of the
    channel's group plus the guard. -/
theorem normalized_apply (a : FVec Ideal S8x4x4x32x4x64x64 .f32) (n : Fin 8) (i j : Fin 4) (ch : Fin 128)
    (hh ww : Fin 64) :
    normalized a (ix6 n i j ch hh ww)
      = deviation a (ix7 n i j (grp ch) (lane ch) hh ww)
        * Ideal.rsqrt (variance a (ix7 n i j (grp ch) (0 : Fin 1) (0 : Fin 1) (0 : Fin 1)) + eps) := by
  unfold normalized
  refine (shapeCast_ungroup_apply _ _ n i j ch hh ww).trans ?_
  show deviation a (ix7 n i j (grp ch) (lane ch) hh ww)
      * spread (Host.rsqrt (addf (variance a) (perGroup (constant (F := Ideal) S_ .f32 0x3727C5AC#32))))
          (ix7 n i j (grp ch) (lane ch) hh ww) = _
  rw [spread_apply]
  show _ * Ideal.rsqrt (variance a (ix7 n i j (grp ch) (0 : Fin 1) (0 : Fin 1) (0 : Fin 1))
      + perGroup (constant (F := Ideal) S_ .f32 0x3727C5AC#32) (ix7 n i j (grp ch) (0 : Fin 1) (0 : Fin 1) (0 : Fin 1))) = _
  rw [perGroup_apply]
  rfl

/-- The scale and shift at channel `ch`. -/
theorem affine_apply (p : FVec Ideal S8x4x4x128x64x64 .f32) (w bias : FVec Ideal S128 .f32) (n : Fin 8) (i j : Fin 4)
    (ch : Fin 128) (hh ww : Fin 64) :
    affine p w bias (ix6 n i j ch hh ww) = p (ix6 n i j ch hh ww) * w (ix1 ch) + bias (ix1 ch) := by
  unfold affine
  show p (ix6 n i j ch hh ww) * perChannel w (ix6 n i j ch hh ww) + perChannel bias (ix6 n i j ch hh ww) = _
  rw [perChannel_apply, perChannel_apply]

/-- `a · (1 / (1 + exp (−a)))` is `a · logistic a`. -/
theorem silu_apply (p : FVec Ideal S8x4x4x128x64x64 .f32) (k : S8x4x4x128x64x64.Idx) :
    silu p k = p k * Ideal.logistic (p k) := by
  unfold silu
  show p k * Ideal.div (ones (F := Ideal) k) (ones (F := Ideal) k + Ideal.exp (-(p k))) = _
  rw [ones_apply]
  exact congrArg (fun z => p k * z) (Cert.RefConsts.div_one_add_exp (p k))

/-- The gated product: the first array times `1` plus the second. -/
theorem gated_apply (p s : FVec Ideal S8x4x4x128x64x64 .f32) (k : S8x4x4x128x64x64.Idx) :
    gated p s k = p k * (Cert.Spec.one + s k) := by
  unfold gated
  show p k * (ones (F := Ideal) k + s k) = _
  rw [ones_apply]
  rfl

end Cert.ReferenceIdeal.RefMoments

end
-- ==== Proof.RefValue.lean ====
/-
  The reference's array is the specification, index by index, on the extended reals.

  At `(n, ch, r, c)` the reference reads its patch view at the patches `r / 64`, `c / 64` and the places `r % 64`,
  `c % 64` within them, and its grouped view at the group `ch / 4` and the place `ch % 4` within it; since
  `4 (ch / 4) + ch % 4 = ch` and `64 (r / 64) + r % 64 = r`, the entry read is the array's entry at `(n, ch, r, c)`,
  and the cell summed over is the specification's. No condition on the entries is needed.
-/
import proofs.«135047_j75144747811287_2_alg».proof.Proof.RefMoments

noncomputable section

open scoped BigOperators

namespace Cert.ReferenceIdeal.RefValue

open Idealize.ShloMosaic Idealize.ShloMosaic.ValueIdx Cert.ReferenceIdeal Cert.ReferenceIdeal.RefTerm
  Cert.ReferenceIdeal.RefStages Cert.ReferenceIdeal.RefMoments Cert.Spec Cert.RefIdx

variable [Facts]

/-- The sum of the grouped patch view over a cell is the specification's patch sum. -/
theorem sum_grouped_patches (x : FVec Ideal S8x128x256x256 .f32) (n : Fin 8) (i j : Fin 4) (g : Fin 32) :
    (∑ cc : Fin 4, ∑ hh : Fin 64, ∑ ww : Fin 64, grouped (patches x) (ix7 n i j g cc hh ww)) = patchSum x n i j g := by
  unfold patchSum
  simp only [grouped_patches_apply]

/-- The reference's mean of a cell is the specification's. -/
theorem mean_patches (x : FVec Ideal S8x128x256x256 .f32) (n : Fin 8) (i j : Fin 4) (g : Fin 32) (u v t : Fin 1) :
    RefTerm.mean (grouped (patches x)) (ix7 n i j g u v t) = Cert.Spec.mean x n i j g := by
  rw [mean_apply, sum_grouped_patches]
  rfl

/-- The reference's deviation of an entry is the entry less the specification's mean of its cell. -/
theorem deviation_patches (x : FVec Ideal S8x128x256x256 .f32) (n : Fin 8) (i j : Fin 4) (g : Fin 32) (cc : Fin 4)
    (hh ww : Fin 64) :
    deviation (grouped (patches x)) (ix7 n i j g cc hh ww)
      = x (ix4 n (chan g cc) (pos i hh) (pos j ww)) - Cert.Spec.mean x n i j g := by
  rw [deviation_apply, sum_grouped_patches, grouped_patches_apply]
  rfl

/-- The reference's variance of a cell is the specification's. -/
theorem variance_patches (x : FVec Ideal S8x128x256x256 .f32) (n : Fin 8) (i j : Fin 4) (g : Fin 32) (u v t : Fin 1) :
    variance (grouped (patches x)) (ix7 n i j g u v t) = Cert.Spec.var x n i j g := by
  rw [variance_apply]
  simp only [deviation_patches]
  rfl

/-- THE REFERENCE IS THE SPECIFICATION. -/
theorem out_eq_G (x y : FVec Ideal S8x128x256x256 .f32) (w b : FVec Ideal S128 .f32) :
    Cert.ReferenceIdeal.RefTerm.out (F := Ideal) x y w b = Cert.Spec.G x y w b := by
  funext k
  obtain ⟨n, ch, r, c, rfl⟩ : ∃ (n : Fin 8) (ch : Fin 128) (r c : Fin 256), k = ix4 n ch r c :=
    ⟨k 0, k 1, k 2, k 3, eq_ix4 k⟩
  rw [Cert.Spec.G_ix4]
  unfold RefTerm.out
  rw [unpatch_apply, gated_apply, affine_apply, normalized_apply, silu_apply, patches_apply, deviation_patches,
    variance_patches, chan_grp_lane, pos_patch_off, pos_patch_off]

end Cert.ReferenceIdeal.RefValue

end
-- ==== Proof.lean ====
/-
  The kernel is a per-patch group normalization of `x`, scaled and shifted per channel, times the gate
  `1 + y · logistic y`; the reference computes the same with jnp. Both are read on the extended reals, where every
  float operation is the exact one.

  The value both compute is `Cert.Spec.G` (Proof/Spec.lean): rows and columns are cut into four patches of 64, channels
  into 32 groups of 4; the mean and the variance are taken over the 4 · 64 · 64 entries of a group in a patch.
  * The kernel (Proof/KerSums.lean … Proof/KerBlocks.lean): a grid point holds 64 channels, one row patch and all four
    column patches side by side along the lanes. The body sums over rows, then over the four channels of a group, and
    gets each column patch's sum by masking the lanes of the patch, summing over all lanes, spreading the sum back over
    the patch's lanes and adding the four spread sums. Sums over finite sets commute and `0` is neutral, so that is the
    patch sum; the rest of the body is pointwise. The 64 blocks tile the array.
  * The reference (Proof/RefTerm.lean … Proof/RefValue.lean): the patches are extracted by a reshape and a transpose,
    the statistics are reductions over three axes, and the result is transposed and reshaped back. It divides the sums
    by `16384` where the kernel multiplies them by `2⁻¹⁴`: the same on every extended real.
  No step needs the inputs to be finite, so the precondition is not used.
-/
import proofs.«135047_j75144747811287_2_alg».proof.Defs
import proofs.«135047_j75144747811287_2_alg».proof.Proof.Gen.Kernel
import proofs.«135047_j75144747811287_2_alg».proof.Proof.Gen.Kernel.Frame
import proofs.«135047_j75144747811287_2_alg».proof.Proof.Gen.KernelIdeal
import proofs.«135047_j75144747811287_2_alg».proof.Proof.Gen.KernelIdeal.Frame
import proofs.«135047_j75144747811287_2_alg».proof.Proof.Gen.KernelIdeal.Value
import proofs.«135047_j75144747811287_2_alg».proof.Proof.Gen.ReferenceIdeal
import proofs.«135047_j75144747811287_2_alg».proof.Proof.Gen.Pre_finite_inputs
import proofs.«135047_j75144747811287_2_alg».proof.Proof.KerBlocks
import proofs.«135047_j75144747811287_2_alg».proof.Proof.RefRun
import proofs.«135047_j75144747811287_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories that agree on the arguments both programs end with the result array at the specification of the
    arguments: the kernel block by block, the reference operation by operation. -/
theorem algebraic : Cert.algebraic_KernelIdeal_ReferenceIdeal := by
  intro m ρ m' ρ' _ hagree
  refine ⟨fun c => Cert.KerBlocks.result m c, Cert.KerBlocks.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.out_eq_G _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
